-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x8x128 : Shape := ⟨3, ![2048, 8, 128]⟩
abbrev S_ : Shape := ⟨0, ![]⟩

class Facts : Prop where
  bcast_S_S2048x8x128 : S_.BroadcastsInDim S2048x8x128 (![] : Fin 0 → Fin S2048x8x128.rank)
  reducesTo_S2048x8x128_S_d0_1_2 : S2048x8x128.ReducesTo [0, 1, 2] S_
  h_S_ : 0 < S_.numel

variable [Facts]

def fn {F : FTy → Type} [FloatOps F] (main_arg0 : FVec F S2048x8x128 .f32) : IVec S_ 1 :=
  let main_v0 : FVec F S2048x8x128 .f32 := Host.absf main_arg0
  let main_cst : FVec F S_ .f32 := constant S_ .f32 0x7F800000#32
  let main_v1 : FVec F S2048x8x128 .f32 := broadcastInDim S2048x8x128 ![] bcast_S_S2048x8x128 main_cst
  let main_v2 : IVec S2048x8x128 1 := cmpf .olt main_v0 main_v1
  let main_c : IVec S_ 1 := constantI S_ 1 1#1
  let main_v3 : IVec S_ 1 := (fun x v => Host.reduce IntOp.andi x v reducesTo_S2048x8x128_S_d0_1_2 h_S_) main_v2 main_c
  main_v3
-- ==== Kernel.lean ====
abbrev S2048x8x128 : Shape := ⟨3, ![2048, 8, 128]⟩
abbrev S_ : Shape := ⟨0, ![]⟩
abbrev S2048x8 : Shape := ⟨2, ![2048, 8]⟩
abbrev S2048x8x1 : Shape := ⟨3, ![2048, 8, 1]⟩
abbrev S2048x128 : Shape := ⟨2, ![2048, 128]⟩
abbrev S2048x1x128 : Shape := ⟨3, ![2048, 1, 128]⟩
abbrev S2048 : Shape := ⟨1, ![2048]⟩
abbrev S2048x1 : Shape := ⟨2, ![2048, 1]⟩
abbrev S16384x1 : Shape := ⟨2, ![16384, 1]⟩
abbrev S16384x128 : Shape := ⟨2, ![16384, 128]⟩
abbrev S512x128 : Shape := ⟨2, ![512, 128]⟩
abbrev S512x1 : Shape := ⟨2, ![512, 1]⟩
abbrev S512x2048 : Shape := ⟨2, ![512, 2048]⟩
abbrev S1x2048 : Shape := ⟨2, ![1, 2048]⟩
abbrev S512 : Shape := ⟨1, ![512]⟩

abbrev nBuf : Space → Nat
  | .hbm => 61
  | .vmem => 7
  | .smem => 0
  | _ => 0

abbrev bufTy : (tb : Table) → Fin (tcTables nBuf tb) → BufTy
  | .hbm, ⟨0, _⟩ => ⟨S2048x8x128, .f32⟩
  | .hbm, ⟨1, _⟩ => ⟨S2048x8x128, .f32⟩
  | .hbm, ⟨2, _⟩ => ⟨S_, .f32⟩
  | .hbm, ⟨3, _⟩ => ⟨S2048x8, .f32⟩
  | .hbm, ⟨4, _⟩ => ⟨S2048x8x1, .f32⟩
  | .hbm, ⟨5, _⟩ => ⟨S2048x8x1, .f32⟩
  | .hbm, ⟨6, _⟩ => ⟨S_, .f32⟩
  | .hbm, ⟨7, _⟩ => ⟨S2048x8x1, .f32⟩
  | .hbm, ⟨8, _⟩ => ⟨S2048x8x1, .f32⟩
  | .hbm, ⟨9, _⟩ => ⟨S2048x8x128, .f32⟩
  | .hbm, ⟨10, _⟩ => ⟨S2048x8x128, .f32⟩
  | .hbm, ⟨11, _⟩ => ⟨S_, .f32⟩
  | .hbm, ⟨12, _⟩ => ⟨S2048x128, .f32⟩
  | .hbm, ⟨13, _⟩ => ⟨S2048x1x128, .f32⟩
  | .hbm, ⟨14, _⟩ => ⟨S2048x8x128, .f32⟩
  | .hbm, ⟨15, _⟩ => ⟨S2048x8x128, .f32⟩
  | .hbm, ⟨16, _⟩ => ⟨S_, .f32⟩
  | .hbm, ⟨17, _⟩ => ⟨S2048x8x128, .f32⟩
  | .hbm, ⟨18, _⟩ => ⟨S2048x8x128, .f32⟩
  | .hbm, ⟨19, _⟩ => ⟨S2048x8x128, .f32⟩
  | .hbm, ⟨20, _⟩ => ⟨S_, .f32⟩
  | .hbm, ⟨21, _⟩ => ⟨S2048x8, .f32⟩
  | .hbm, ⟨22, _⟩ => ⟨S2048x8x1, .f32⟩
  | .hbm, ⟨23, _⟩ => ⟨S2048x8x1, .f32⟩
  | .hbm, ⟨24, _⟩ => ⟨S_, .f32⟩
  | .hbm, ⟨25, _⟩ => ⟨S2048x8x1, .f32⟩
  | .hbm, ⟨26, _⟩ => ⟨S2048x8x1, .f32⟩
  | .hbm, ⟨27, _⟩ => ⟨S2048x8x128, .f32⟩
  | .hbm, ⟨28, _⟩ => ⟨S2048x8x128, .f32⟩
  | .hbm, ⟨29, _⟩ => ⟨S2048x8x128, .f32⟩
  | .hbm, ⟨30, _⟩ => ⟨S_, .f32⟩
  | .hbm, ⟨31, _⟩ => ⟨S2048x8, .f32⟩
  | .hbm, ⟨32, _⟩ => ⟨S_, .f32⟩
  | .hbm, ⟨33, _⟩ => ⟨S2048x128, .f32⟩
  | .hbm, ⟨34, _⟩ => ⟨S_, .f32⟩
  | .hbm, ⟨35, _⟩ => ⟨S2048x128, .f32⟩
  | .hbm, ⟨36, _⟩ => ⟨S2048x128, .f32⟩
  | .hbm, ⟨37, _⟩ => ⟨S2048x128, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S2048x128, .f32⟩
  | .hbm, ⟨46, _⟩ => ⟨S2048x128, .f32⟩
  | .hbm, ⟨47, _⟩ => ⟨S_, .f32⟩
  | .hbm, ⟨48, _⟩ => ⟨S2048x8, .f32⟩
  | .hbm, ⟨49, _⟩ => ⟨S2048x8, .f32⟩
  | .hbm, ⟨50, _⟩ => ⟨S_, .f32⟩
  | .hbm, ⟨51, _⟩ => ⟨S2048x8, .f32⟩
  | .hbm, ⟨52, _⟩ => ⟨S2048x8, .f32⟩
  | .hbm, ⟨53, _⟩ => ⟨S16384x1, .f32⟩
  | .hbm, ⟨54, _⟩ => ⟨S16384x128, .f32⟩
  | .hbm, ⟨55, _⟩ => ⟨S16384x1, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S512x1, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | _, _ => ⟨S2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_call2_v0 : Ref sig .tc := ⟨.hbm, 37, rfl⟩
abbrev main_call2_cst : Ref sig .tc := ⟨.hbm, 38, rfl⟩
abbrev main_call2_v1 : Ref sig .tc := ⟨.hbm, 39, rfl⟩
abbrev main_call2_v2 : Ref sig .tc := ⟨.hbm, 40, rfl⟩
abbrev main_v21 : Ref sig .tc := ⟨.hbm, 41, rfl⟩
abbrev main_cst_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩
abbrev main_cst_8 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_9 : Ref sig .tc := ⟨.hbm, 56, rfl⟩
abbrev main_v33 : Ref sig .tc := ⟨.hbm, 57, rfl⟩
abbrev main_cst_10 : Ref sig .tc := ⟨.hbm, 58, rfl⟩
abbrev main_v34 : Ref sig .tc := ⟨.hbm, 59, rfl⟩
abbrev main_v35 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S2048x8x128_S2048x8_d2 : S2048x8x128.ReducesTo [2] S2048x8
  h_S_ : 0 < S_.numel
  bcast_S2048x8_S2048x8x1_0_1 : S2048x8.BroadcastsInDim S2048x8x1 (![0, 1] : Fin 2 → Fin S2048x8x1.rank)
  bcast_S_S2048x8x1 : S_.BroadcastsInDim S2048x8x1 (![] : Fin 0 → Fin S2048x8x1.rank)
  bcast_S2048x8x1_S2048x8x128_0_1_2 : S2048x8x1.BroadcastsInDim S2048x8x128 (![0, 1, 2] : Fin 3 → Fin S2048x8x128.rank)
  reducesTo_S2048x8x128_S2048x128_d1 : S2048x8x128.ReducesTo [1] S2048x128
  bcast_S2048x128_S2048x1x128_0_2 : S2048x128.BroadcastsInDim S2048x1x128 (![0, 2] : Fin 2 → Fin S2048x1x128.rank)
  bcast_S2048x1x128_S2048x8x128_0_1_2 : S2048x1x128.BroadcastsInDim S2048x8x128 (![0, 1, 2] : Fin 3 → Fin S2048x8x128.rank)
  bcast_S_S2048x8x128 : S_.BroadcastsInDim S2048x8x128 (![] : Fin 0 → Fin S2048x8x128.rank)
  bcast_S_S2048x128 : S_.BroadcastsInDim S2048x128 (![] : Fin 0 → Fin S2048x128.rank)
  reducesTo_S2048x128_S2048_d1 : S2048x128.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x128_0_1 : S2048x1.BroadcastsInDim S2048x128 (![0, 1] : Fin 2 → Fin S2048x128.rank)
  bcast_S_S2048x8 : S_.BroadcastsInDim S2048x8 (![] : Fin 0 → Fin S2048x8.rank)
  shapeCasts_S2048x8_S16384x1 : S2048x8.ShapeCasts S16384x1
  shapeCasts_S2048x8x128_S16384x128 : S2048x8x128.ShapeCasts S16384x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  iota_S512x1_d0_w32 : S512x1.Iotas .tc 32 [0]
  natLt_1_32 : 1 < 32
  iota_S1x2048_d1_w32 : S1x2048.Iotas .tc 32 [1]
  broadcasts_S1x2048_S512x2048 : S1x2048.Broadcasts S512x2048
  broadcasts_S512x1_S512x2048 : S512x1.Broadcasts S512x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  reduces_S512x2048_S512 : S512x2048.Reduces [1] S512
  shapeCasts_S512_S512x1 : S512.ShapeCasts S512x1
  reducesTo_S16384x1_S_d0_1 : S16384x1.ReducesTo [0, 1] S_
  dot_S512x128_S2048x128_S512x2048_1_1_0_0_n_n_wf : DotDims.WF S512x128 S2048x128 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S16384x128.size a
  hwx0_0 : ∀ i : grid0.Coords, EltTy.bits .f32 = 32 ∨ (Rect.block (s := S16384x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S2048x128.size a
  hwx0_1 : ∀ i : grid0.Coords, EltTy.bits .f32 = 32 ∨ (Rect.block (s := S2048x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .f32 = 32 ∨ (Rect.block (s := S16384x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S16384x1.size a
  hwx0_3 : ∀ i : grid0.Coords, EltTy.bits .f32 = 32 ∨ (Rect.block (s := S16384x1) S512x1.size (cc0_transform_3 i) (hinb0_3 i)).WholeWords (EltTy.packing .f32)

variable [Facts₀]

def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf

abbrev win0_0 : Pipeline.Window sig grid0 :=
  Pipeline.Window.ofSpec (Memref.whole main_v31) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S2048x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x8x128 : Shape := ⟨3, ![2048, 8, 128]⟩
abbrev S_ : Shape := ⟨0, ![]⟩
abbrev S2048x8 : Shape := ⟨2, ![2048, 8]⟩
abbrev S2048x8x1 : Shape := ⟨3, ![2048, 8, 1]⟩
abbrev S2048x128 : Shape := ⟨2, ![2048, 128]⟩
abbrev S2048x1x128 : Shape := ⟨3, ![2048, 1, 128]⟩
abbrev S2048 : Shape := ⟨1, ![2048]⟩
abbrev S2048x1 : Shape := ⟨2, ![2048, 1]⟩
abbrev S2048x8x2048 : Shape := ⟨3, ![2048, 8, 2048]⟩
abbrev S2048x2 : Shape := ⟨2, ![2048, 2]⟩
abbrev S16384x2048 : Shape := ⟨2, ![16384, 2048]⟩
abbrev S16384 : Shape := ⟨1, ![16384]⟩
abbrev S16384x1 : Shape := ⟨2, ![16384, 1]⟩
abbrev S16384x2 : Shape := ⟨2, ![16384, 2]⟩

abbrev nBuf : Space → Nat
  | .hbm => 123
  | .vmem => 0
  | .smem => 0
  | _ => 0

abbrev bufTy : (tb : Table) → Fin (tcTables nBuf tb) → BufTy
  | .hbm, ⟨0, _⟩ => ⟨S2048x8x128, .f32⟩
  | .hbm, ⟨1, _⟩ => ⟨S2048x8x128, .f32⟩
  | .hbm, ⟨2, _⟩ => ⟨S_, .f32⟩
  | .hbm, ⟨3, _⟩ => ⟨S2048x8, .f32⟩
  | .hbm, ⟨4, _⟩ => ⟨S2048x8x1, .f32⟩
  | .hbm, ⟨5, _⟩ => ⟨S2048x8x1, .f32⟩
  | .hbm, ⟨6, _⟩ => ⟨S_, .f32⟩
  | .hbm, ⟨7, _⟩ => ⟨S_, .f32⟩
  | .hbm, ⟨8, _⟩ => ⟨S2048x8x1, .f32⟩
  | .hbm, ⟨9, _⟩ => ⟨S2048x8x1, .f32⟩
  | .hbm, ⟨10, _⟩ => ⟨S2048x8x128, .f32⟩
  | .hbm, ⟨11, _⟩ => ⟨S2048x8x128, .f32⟩
  | .hbm, ⟨12, _⟩ => ⟨S_, .f32⟩
  | .hbm, ⟨13, _⟩ => ⟨S2048x128, .f32⟩
  | .hbm, ⟨14, _⟩ => ⟨S_, .f32⟩
  | .hbm, ⟨15, _⟩ => ⟨S2048x128, .f32⟩
  | .hbm, ⟨16, _⟩ => ⟨S2048x128, .f32⟩
  | .hbm, ⟨17, _⟩ => ⟨S_, .f32⟩
  | .hbm, ⟨18, _⟩ => ⟨S2048x128, .f32⟩
  | .hbm, ⟨19, _⟩ => ⟨S2048x1x128, .f32⟩
  | .hbm, ⟨20, _⟩ => ⟨S2048x8x128, .f32⟩
  | .hbm, ⟨21, _⟩ => ⟨S2048x8x128, .f32⟩
  | .hbm, ⟨22, _⟩ => ⟨S_, .f32⟩
  | .hbm, ⟨23, _⟩ => ⟨S2048x8x128, .f32⟩
  | .hbm, ⟨24, _⟩ => ⟨S2048x8x128, .f32⟩
  | .hbm, ⟨25, _⟩ => ⟨S2048x8x128, .f32⟩
  | .hbm, ⟨26, _⟩ => ⟨S_, .f32⟩
  | .hbm, ⟨27, _⟩ => ⟨S2048x8, .f32⟩
  | .hbm, ⟨28, _⟩ => ⟨S2048x8x1, .f32⟩
  | .hbm, ⟨29, _⟩ => ⟨S2048x8x1, .f32⟩
  | .hbm, ⟨30, _⟩ => ⟨S_, .f32⟩
  | .hbm, ⟨31, _⟩ => ⟨S_, .f32⟩
  | .hbm, ⟨32, _⟩ => ⟨S2048x8x1, .f32⟩
  | .hbm, ⟨33, _⟩ => ⟨S2048x8x1, .f32⟩
  | .hbm, ⟨34, _⟩ => ⟨S2048x8x128, .f32⟩
  | .hbm, ⟨35, _⟩ => ⟨S2048x8x128, .f32⟩
  | .hbm, ⟨36, _⟩ => ⟨S2048x8x128, .f32⟩
  | .hbm, ⟨37, _⟩ => ⟨S_, .f32⟩
  | .hbm, ⟨38, _⟩ => ⟨S2048x8, .f32⟩
  | .hbm, ⟨39, _⟩ => ⟨S2048x128, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S2048x128, .f32⟩
  | .hbm, ⟨49, _⟩ => ⟨S2048x128, .f32⟩
  | .hbm, ⟨50, _⟩ => ⟨S2048x8x2048, .f32⟩
  | .hbm, ⟨51, _⟩ => ⟨S_, .f32⟩
  | .hbm, ⟨52, _⟩ => ⟨S2048x8x2048, .f32⟩
  | .hbm, ⟨53, _⟩ => ⟨S2048x8x2048, .f32⟩
  | .hbm, ⟨54, _⟩ => ⟨S2048, .i32⟩
  | .hbm, ⟨55, _⟩ => ⟨S_, .f32⟩
  | .hbm, ⟨56, _⟩ => ⟨S2048x8, .f32⟩
  | .hbm, ⟨57, _⟩ => ⟨S2048x8, .f32⟩
  | .hbm, ⟨58, _⟩ => ⟨S_, .i32⟩
  | .hbm, ⟨59, _⟩ => ⟨S2048, .i32⟩
  | .hbm, ⟨60, _⟩ => ⟨S2048, .i1⟩
  | .hbm, ⟨61, _⟩ => ⟨S_, .i32⟩
  | .hbm, ⟨62, _⟩ => ⟨S2048, .i32⟩
  | .hbm, ⟨63, _⟩ => ⟨S2048, .i32⟩
  | .hbm, ⟨64, _⟩ => ⟨S2048, .i32⟩
  | .hbm, ⟨65, _⟩ => ⟨S_, .i32⟩
  | .hbm, ⟨66, _⟩ => ⟨S2048, .i32⟩
  | .hbm, ⟨67, _⟩ => ⟨S2048, .i1⟩
  | .hbm, ⟨68, _⟩ => ⟨S_, .i32⟩
  | .hbm, ⟨69, _⟩ => ⟨S2048, .i32⟩
  | .hbm, ⟨70, _⟩ => ⟨S2048, .i32⟩
  | .hbm, ⟨71, _⟩ => ⟨S2048, .i32⟩
  | .hbm, ⟨72, _⟩ => ⟨S2048x1, .i32⟩
  | .hbm, ⟨73, _⟩ => ⟨S2048x1, .i32⟩
  | .hbm, ⟨74, _⟩ => ⟨S2048x2, .i32⟩
  | .hbm, ⟨75, _⟩ => ⟨S2048x8x2048, .f32⟩
  | .hbm, ⟨76, _⟩ => ⟨S_, .f32⟩
  | .hbm, ⟨77, _⟩ => ⟨S_, .f32⟩
  | .hbm, ⟨78, _⟩ => ⟨S2048x8x2048, .f32⟩
  | .hbm, ⟨79, _⟩ => ⟨S2048x8x2048, .f32⟩
  | .hbm, ⟨80, _⟩ => ⟨S16384x2048, .f32⟩
  | .hbm, ⟨81, _⟩ => ⟨S2048, .i32⟩
  | .hbm, ⟨82, _⟩ => ⟨S2048x8, .i32⟩
  | .hbm, ⟨83, _⟩ => ⟨S16384, .i32⟩
  | .hbm, ⟨84, _⟩ => ⟨S_, .f32⟩
  | .hbm, ⟨85, _⟩ => ⟨S16384, .f32⟩
  | .hbm, ⟨86, _⟩ => ⟨S_, .f32⟩
  | .hbm, ⟨87, _⟩ => ⟨S16384, .f32⟩
  | .hbm, ⟨88, _⟩ => ⟨S16384, .f32⟩
  | .hbm, ⟨89, _⟩ => ⟨S16384x1, .f32⟩
  | .hbm, ⟨90, _⟩ => ⟨S16384x2048, .f32⟩
  | .hbm, ⟨91, _⟩ => ⟨S16384x2048, .f32⟩
  | .hbm, ⟨92, _⟩ => ⟨S16384x2048, .f32⟩
  | .hbm, ⟨93, _⟩ => ⟨S_, .f32⟩
  | .hbm, ⟨94, _⟩ => ⟨S16384, .f32⟩
  | .hbm, ⟨95, _⟩ => ⟨S16384x1, .f32⟩
  | .hbm, ⟨96, _⟩ => ⟨S16384x1, .f32⟩
  | .hbm, ⟨97, _⟩ => ⟨S16384x2048, .f32⟩
  | .hbm, ⟨98, _⟩ => ⟨S16384x2048, .f32⟩
  | .hbm, ⟨99, _⟩ => ⟨S16384, .i32⟩
  | .hbm, ⟨100, _⟩ => ⟨S_, .i32⟩
  | .hbm, ⟨101, _⟩ => ⟨S16384, .i32⟩
  | .hbm, ⟨102, _⟩ => ⟨S16384, .i1⟩
  | .hbm, ⟨103, _⟩ => ⟨S_, .i32⟩
  | .hbm, ⟨104, _⟩ => ⟨S16384, .i32⟩
  | .hbm, ⟨105, _⟩ => ⟨S16384, .i32⟩
  | .hbm, ⟨106, _⟩ => ⟨S16384, .i32⟩
  | .hbm, ⟨107, _⟩ => ⟨S_, .i32⟩
  | .hbm, ⟨108, _⟩ => ⟨S16384, .i32⟩
  | .hbm, ⟨109, _⟩ => ⟨S16384, .i1⟩
  | .hbm, ⟨110, _⟩ => ⟨S_, .i32⟩
  | .hbm, ⟨111, _⟩ => ⟨S16384, .i32⟩
  | .hbm, ⟨112, _⟩ => ⟨S16384, .i32⟩
  | .hbm, ⟨113, _⟩ => ⟨S16384, .i32⟩
  | .hbm, ⟨114, _⟩ => ⟨S16384x1, .i32⟩
  | .hbm, ⟨115, _⟩ => ⟨S16384x1, .i32⟩
  | .hbm, ⟨116, _⟩ => ⟨S16384x2, .i32⟩
  | .hbm, ⟨117, _⟩ => ⟨S16384, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | _, _ => ⟨S2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_call1_v0 : Ref sig .tc := ⟨.hbm, 7, rfl⟩
abbrev main_call1_v1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_call2_v0 : Ref sig .tc := ⟨.hbm, 25, rfl⟩
abbrev main_call2_cst : Ref sig .tc := ⟨.hbm, 26, rfl⟩
abbrev main_call2_v1 : Ref sig .tc := ⟨.hbm, 27, rfl⟩
abbrev main_call2_v2 : Ref sig .tc := ⟨.hbm, 28, rfl⟩
abbrev main_v13 : Ref sig .tc := ⟨.hbm, 29, rfl⟩
abbrev main_cst_4 : Ref sig .tc := ⟨.hbm, 30, rfl⟩
abbrev main_call3_v0 : Ref sig .tc := ⟨.hbm, 31, rfl⟩
abbrev main_call3_v1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_5 : Ref sig .tc := ⟨.hbm, 37, rfl⟩
abbrev main_v18 : Ref sig .tc := ⟨.hbm, 38, rfl⟩
abbrev main_call4_v0 : Ref sig .tc := ⟨.hbm, 39, rfl⟩
abbrev main_call4_cst : Ref sig .tc := ⟨.hbm, 40, rfl⟩
abbrev main_call4_v1 : Ref sig .tc := ⟨.hbm, 41, rfl⟩
abbrev main_call4_v2 : Ref sig .tc := ⟨.hbm, 42, rfl⟩
abbrev main_v19 : Ref sig .tc := ⟨.hbm, 43, rfl⟩
abbrev main_cst_6 : Ref sig .tc := ⟨.hbm, 44, rfl⟩
abbrev main_call5_v0 : Ref sig .tc := ⟨.hbm, 45, rfl⟩
abbrev main_call5_v1 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_7 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_8 : Ref sig .tc := ⟨.hbm, 55, rfl⟩
abbrev main_v27 : Ref sig .tc := ⟨.hbm, 56, rfl⟩
abbrev main_v28 : Ref sig .tc := ⟨.hbm, 57, rfl⟩
abbrev main_c : Ref sig .tc := ⟨.hbm, 58, rfl⟩
abbrev main_v29 : Ref sig .tc := ⟨.hbm, 59, rfl⟩
abbrev main_v30 : Ref sig .tc := ⟨.hbm, 60, rfl⟩
abbrev main_c_9 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_c_10 : Ref sig .tc := ⟨.hbm, 65, rfl⟩
abbrev main_v34 : Ref sig .tc := ⟨.hbm, 66, rfl⟩
abbrev main_v35 : Ref sig .tc := ⟨.hbm, 67, rfl⟩
abbrev main_c_11 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_12 : Ref sig .tc := ⟨.hbm, 76, rfl⟩
abbrev main_call6_v0 : Ref sig .tc := ⟨.hbm, 77, rfl⟩
abbrev main_call6_v1 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_call7_cst : Ref sig .tc := ⟨.hbm, 84, rfl⟩
abbrev main_call7_v0 : Ref sig .tc := ⟨.hbm, 85, rfl⟩
abbrev main_call7_cst_0 : Ref sig .tc := ⟨.hbm, 86, rfl⟩
abbrev main_call7_v1 : Ref sig .tc := ⟨.hbm, 87, rfl⟩
abbrev main_call7_v2 : Ref sig .tc := ⟨.hbm, 88, rfl⟩
abbrev main_call7_v3 : Ref sig .tc := ⟨.hbm, 89, rfl⟩
abbrev main_call7_v4 : Ref sig .tc := ⟨.hbm, 90, rfl⟩
abbrev main_call7_v5 : Ref sig .tc := ⟨.hbm, 91, rfl⟩
abbrev main_call7_v6 : Ref sig .tc := ⟨.hbm, 92, rfl⟩
abbrev main_call7_cst_1 : Ref sig .tc := ⟨.hbm, 93, rfl⟩
abbrev main_call7_v7 : Ref sig .tc := ⟨.hbm, 94, rfl⟩
abbrev main_call7_v8 : Ref sig .tc := ⟨.hbm, 95, rfl⟩
abbrev main_call7_v9 : Ref sig .tc := ⟨.hbm, 96, rfl⟩
abbrev main_call7_v10 : Ref sig .tc := ⟨.hbm, 97, rfl⟩
abbrev main_v48 : Ref sig .tc := ⟨.hbm, 98, rfl⟩
abbrev main_v49 : Ref sig .tc := ⟨.hbm, 99, rfl⟩
abbrev main_c_13 : Ref sig .tc := ⟨.hbm, 100, rfl⟩
abbrev main_v50 : Ref sig .tc := ⟨.hbm, 101, rfl⟩
abbrev main_v51 : Ref sig .tc := ⟨.hbm, 102, rfl⟩
abbrev main_c_14 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_c_15 : Ref sig .tc := ⟨.hbm, 107, rfl⟩
abbrev main_v55 : Ref sig .tc := ⟨.hbm, 108, rfl⟩
abbrev main_v56 : Ref sig .tc := ⟨.hbm, 109, rfl⟩
abbrev main_c_16 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_cst_17 : Ref sig .tc := ⟨.hbm, 118, rfl⟩
abbrev main_v64 : Ref sig .tc := ⟨.hbm, 119, rfl⟩
abbrev main_cst_18 : Ref sig .tc := ⟨.hbm, 120, rfl⟩
abbrev main_v65 : Ref sig .tc := ⟨.hbm, 121, rfl⟩
abbrev main_v66 : Ref sig .tc := ⟨.hbm, 122, rfl⟩

abbrev nD : Nat := 1
abbrev τ : Topo := Topo.v7x

variable {F : FTy → Type} [FloatOps F]

class Facts₀ : Prop where
  reducesTo_S2048x8x128_S2048x8_d2 : S2048x8x128.ReducesTo [2] S2048x8
  h_S_ : 0 < S_.numel
  bcast_S2048x8_S2048x8x1_0_1 : S2048x8.BroadcastsInDim S2048x8x1 (![0, 1] : Fin 2 → Fin S2048x8x1.rank)
  bcast_S_S2048x8x1 : S_.BroadcastsInDim S2048x8x1 (![] : Fin 0 → Fin S2048x8x1.rank)
  bcast_S2048x8x1_S2048x8x128_0_1_2 : S2048x8x1.BroadcastsInDim S2048x8x128 (![0, 1, 2] : Fin 3 → Fin S2048x8x128.rank)
  reducesTo_S2048x8x128_S2048x128_d1 : S2048x8x128.ReducesTo [1] S2048x128
  bcast_S_S2048x128 : S_.BroadcastsInDim S2048x128 (![] : Fin 0 → Fin S2048x128.rank)
  bcast_S2048x128_S2048x1x128_0_2 : S2048x128.BroadcastsInDim S2048x1x128 (![0, 2] : Fin 2 → Fin S2048x1x128.rank)
  bcast_S2048x1x128_S2048x8x128_0_1_2 : S2048x1x128.BroadcastsInDim S2048x8x128 (![0, 1, 2] : Fin 3 → Fin S2048x8x128.rank)
  bcast_S_S2048x8x128 : S_.BroadcastsInDim S2048x8x128 (![] : Fin 0 → Fin S2048x8x128.rank)
  reducesTo_S2048x128_S2048_d1 : S2048x128.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x128_0_1 : S2048x1.BroadcastsInDim S2048x128 (![0, 1] : Fin 2 → Fin S2048x128.rank)
  bcast_S_S2048x8x2048 : S_.BroadcastsInDim S2048x8x2048 (![] : Fin 0 → Fin S2048x8x2048.rank)
  bcast_S_S2048x8 : S_.BroadcastsInDim S2048x8 (![] : Fin 0 → Fin S2048x8.rank)
  bcast_S_S2048 : S_.BroadcastsInDim S2048 (![] : Fin 0 → Fin S2048.rank)
  concatenates_S2048x1_S2048x1_S2048x2_d1 : Shape.Concatenates [S2048x1, S2048x1] S2048x2 1
  shapeCasts_S2048x8x2048_S16384x2048 : S2048x8x2048.ShapeCasts S16384x2048
  bcast_S2048_S2048x8_0 : S2048.BroadcastsInDim S2048x8 (![0] : Fin 1 → Fin S2048x8.rank)
  shapeCasts_S2048x8_S16384 : S2048x8.ShapeCasts S16384
  reducesTo_S16384x2048_S16384_d1 : S16384x2048.ReducesTo [1] S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x2048_0_1 : S16384x1.BroadcastsInDim S16384x2048 (![0, 1] : Fin 2 → Fin S16384x2048.rank)
  concatenates_S16384x1_S16384x1_S16384x2_d1 : Shape.Concatenates [S16384x1, S16384x1] S16384x2 1
  reducesTo_S16384_S_d0 : S16384.ReducesTo [0] S_
  dot_S2048x8x128_S2048x128_S2048x8x2048_2_1_01_0_n_n_wf : DotDims.WF S2048x8x128 S2048x128 S2048x8x2048 [2] [1] [0, 1] [0] [] []
  scatter_S2048x8x2048_S2048x2_S2048x8_1_02_02_1_wf : ScatterDims.WF S2048x8x2048 S2048x2 S2048x8 [1] [0, 2] [0, 2] 1
  gather_S16384x2048_S16384x2_S16384_n_01_n_n_01_1_11_wf : GatherDims.WF S16384x2048 S16384x2 S16384 [] [0, 1] [] [0, 1] [] 1 ![1, 1]

variable [Facts₀]

def dot_S2048x8x128_S2048x128_S2048x8x2048_2_1_01_0_n_n : DotDims S2048x8x128 S2048x128 S2048x8x2048 where
  lhsContracting := [2]
  rhsContracting := [1]
  lhsNonContracting := [0, 1]
  rhsNonContracting := [0]
  lhsBatch := []
  rhsBatch := []
  wf := dot_S2048x8x128_S2048x128_S2048x8x2048_2_1_01_0_n_n_wf
def scatter_S2048x8x2048_S2048x2_S2048x8_1_02_02_1 : ScatterDims S2048x8x2048 S2048x2 S2048x8 where
  updateWindowDims := [1]
  insertedWindowDims := [0, 2]
  scatterDimsToOperandDims := [0, 2]
  indexVectorDim := 1
  wf := scatter_S2048x8x2048_S2048x2_S2048x8_1_02_02_1_wf
def gather_S16384x2048_S16384x2_S16384_n_01_n_n_01_1_11 : GatherDims S16384x2048 S16384x2 S16384 where
  offsetDims := []
  collapsedSliceDims := [0, 1]
  operandBatchingDims := []
  startIndicesBatchingDims := []
  startIndexMap := [0, 1]
  indexVectorDim := 1
  sliceSizes := ![1, 1]
  wf := gather_S16384x2048_S16384x2_S16384_n_01_n_n_01_1_11_wf

class Facts : Prop extends Facts₀ where

variable [Facts]
-- ==== Proof.RowLogProb.lean ====
/-
  One row of the speaker-verification loss, on the extended reals.

  A row r = 8 s + g is utterance g of speaker s. Its adjusted logits over the 2048 speakers are: in the row's own column
  t = s the row's diagonal logit (already clipped below at the floor); in every other column the scaled similarity
  30 · ⟨x_r, c_t⟩ of the row's unit vector with the column's unit centroid, clipped below at the floor. The row's log
  probability of its own speaker is its diagonal logit minus the log-sum-exp of the adjusted logits, the log-sum-exp
  taken stably around the row's maximum M:  lse = M + log Σ_t exp (a_t − M).

  Two arrangements of that one number are compared:   d − (M + L)   and   (a_s − M) − L   with a_s = d.
  On the extended reals they agree as soon as M is a real number (M = +∞ together with L = −∞ would separate them),
  and M is real as soon as every adjusted logit of the row is.
-/
import Idealize.ShloMosaic.PureOps.Ideal
import Idealize.ShloMosaic.Lib.ValueIdx

noncomputable section

namespace Cert.RowLogProb

open Idealize.ShloMosaic Idealize.ShloMosaic.ValueIdx

/-- The logit scale, thirty, as the word both programs carry. -/
def scale : EReal := Ideal.ofBits .f32 0x41F00000#32
/-- The floor the logits are clipped at (the single-precision neighbour of 1e-6), as the word both programs carry. -/
def floor6 : EReal := Ideal.ofBits .f32 0x358637BD#32

/-- A row's adjusted logits: the diagonal logit `dg` in the row's own column, elsewhere the scaled similarity of the
    row vector `xr` with centroid `t`, clipped below at the floor. -/
def adj (xr : Fin 128 → EReal) (C : Fin 2048 → Fin 128 → EReal) (dg : EReal) (own t : Fin 2048) : EReal :=
  if t = own then dg else max ((∑ d, xr d * C t d) * scale) floor6

/-- The largest adjusted logit of a row (a fold of `max` from −∞). -/
def rowMax (a : Fin 2048 → EReal) : EReal := Finset.univ.fold max ⊥ a
/-- The log of the sum of the exponentials of a row's logits, each taken relative to the row's maximum. -/
def rowLse (a : Fin 2048 → EReal) : EReal := Ideal.log (∑ t, Ideal.exp (a t - rowMax a))
/-- The row's log probability, the log-sum-exp assembled first:  d − (M + L). -/
def logpK (a : Fin 2048 → EReal) (dg : EReal) : EReal := dg - (rowMax a + rowLse a)
/-- The row's log probability, the own column's logit shifted first:  (a_s − M) − L. -/
def logpR (a : Fin 2048 → EReal) (own : Fin 2048) : EReal := (a own - rowMax a) - rowLse a

/-- Subtracting a sum whose first term is real is subtracting its terms one after the other. -/
theorem sub_add_eq (a c : EReal) (b : ℝ) : a - ((b : EReal) + c) = a - b - c := by
  rw [sub_eq_add_neg a, EReal.neg_add (Or.inl (EReal.coe_ne_bot b)) (Or.inl (EReal.coe_ne_top b)),
    sub_eq_add_neg (-(b : EReal)), ← add_assoc, ← sub_eq_add_neg, ← sub_eq_add_neg]

/-- A fold of `max` from −∞ over a nonempty finite set is attained. -/
theorem fold_max_attained {ι : Type} [DecidableEq ι] (s : Finset ι) (f : ι → EReal) (hs : s.Nonempty) :
    ∃ i ∈ s, s.fold max ⊥ f = f i := by
  induction s using Finset.induction_on with
  | empty => exact absurd hs Finset.not_nonempty_empty
  | insert i s hi ih =>
    rw [Finset.fold_insert hi]
    rcases s.eq_empty_or_nonempty with rfl | hne
    · exact ⟨i, Finset.mem_insert_self _ _, by rw [Finset.fold_empty]; exact max_eq_left bot_le⟩
    · obtain ⟨j, hj, e⟩ := ih hne
      rcases max_choice (f i) (s.fold max ⊥ f) with h | h
      · exact ⟨i, Finset.mem_insert_self _ _, h⟩
      · exact ⟨j, Finset.mem_insert_of_mem hj, h.trans e⟩

/-- Every logit is below the row's maximum. -/
theorem le_rowMax (a : Fin 2048 → EReal) (t : Fin 2048) : a t ≤ rowMax a := by
  unfold rowMax
  have : ∀ (s : Finset (Fin 2048)), t ∈ s → a t ≤ s.fold max ⊥ a := by
    intro s
    induction s using Finset.induction_on with
    | empty => intro h; exact absurd h (Finset.notMem_empty _)
    | insert i s hi ih =>
      intro h
      rw [Finset.fold_insert hi]
      rcases Finset.mem_insert.mp h with rfl | h'
      · exact le_max_left _ _
      · exact (ih h').trans (le_max_right _ _)
  exact this _ (Finset.mem_univ t)

/-- The maximum of a row of real logits is real. -/
theorem rowMax_real (a : Fin 2048 → EReal) (h : ∀ t, ∃ q : ℝ, a t = q) : ∃ q : ℝ, rowMax a = q := by
  obtain ⟨t, -, e⟩ := fold_max_attained Finset.univ a ⟨0, Finset.mem_univ _⟩
  obtain ⟨q, hq⟩ := h t
  exact ⟨q, e.trans hq⟩

/-- The two arrangements of a row's log probability agree when the row's logits are real. -/
theorem logp_eq (a : Fin 2048 → EReal) (own : Fin 2048) (h : ∀ t, ∃ q : ℝ, a t = q) :
    logpK a (a own) = logpR a own := by
  obtain ⟨q, hq⟩ := rowMax_real a h
  unfold logpK logpR
  rw [hq]
  exact sub_add_eq _ _ q

/-! ## The loss over all rows -/

/-- The speaker of row `r = 8 s + g`. -/
def sOf (r : Fin 16384) : Fin 2048 := ⟨r.val / 8, by omega⟩
/-- The utterance of row `r = 8 s + g` within its speaker. -/
def gOf (r : Fin 16384) : Fin 8 := ⟨r.val % 8, by omega⟩

/-- Row `r`'s adjusted logits from the three arrays the preprocessing produces: the unit vectors `X` (speaker,
    utterance, feature), the unit centroids `C` (speaker, feature) and the scaled exclusive-centroid similarities `D`
    (speaker, utterance), the diagonal logit being `D` clipped below at the floor. -/
def rowAdj (X : (⟨3, ![2048, 8, 128]⟩ : Shape).Idx → EReal) (C : (⟨2, ![2048, 128]⟩ : Shape).Idx → EReal)
    (D : (⟨2, ![2048, 8]⟩ : Shape).Idx → EReal) (r : Fin 16384) : Fin 2048 → EReal :=
  adj (fun d => X (ix3 (sOf r) (gOf r) d)) (fun t d => C (ix2 t d)) (max (D (ix2 (sOf r) (gOf r))) floor6) (sOf r)

/-- Minus the mean over the 16384 rows (the sum from the zero word, the count as its word). -/
def negMean (L : Fin 16384 → EReal) : EReal :=
  -(Ideal.div (Ideal.ofBits .f32 0x00000000#32 + ∑ r, L r) (Ideal.ofBits .f32 0x46800000#32))

/-- The loss with each row's log-sum-exp assembled first. -/
def lossK (X : (⟨3, ![2048, 8, 128]⟩ : Shape).Idx → EReal) (C : (⟨2, ![2048, 128]⟩ : Shape).Idx → EReal)
    (D : (⟨2, ![2048, 8]⟩ : Shape).Idx → EReal) : EReal :=
  negMean fun r => logpK (rowAdj X C D r) (max (D (ix2 (sOf r) (gOf r))) floor6)

/-- The loss with each row's own logit shifted first. -/
def lossR (X : (⟨3, ![2048, 8, 128]⟩ : Shape).Idx → EReal) (C : (⟨2, ![2048, 128]⟩ : Shape).Idx → EReal)
    (D : (⟨2, ![2048, 8]⟩ : Shape).Idx → EReal) : EReal :=
  negMean fun r => logpR (rowAdj X C D r) (sOf r)

/-- A row's own column holds its diagonal logit. -/
theorem rowAdj_own (X : (⟨3, ![2048, 8, 128]⟩ : Shape).Idx → EReal) (C : (⟨2, ![2048, 128]⟩ : Shape).Idx → EReal)
    (D : (⟨2, ![2048, 8]⟩ : Shape).Idx → EReal) (r : Fin 16384) :
    rowAdj X C D r (sOf r) = max (D (ix2 (sOf r) (gOf r))) floor6 := by
  unfold rowAdj adj
  rw [if_pos rfl]

/-- The two losses agree when every adjusted logit is real. -/
theorem loss_eq (X : (⟨3, ![2048, 8, 128]⟩ : Shape).Idx → EReal) (C : (⟨2, ![2048, 128]⟩ : Shape).Idx → EReal)
    (D : (⟨2, ![2048, 8]⟩ : Shape).Idx → EReal) (h : ∀ r t, ∃ q : ℝ, rowAdj X C D r t = q) :
    lossK X C D = lossR X C D := by
  unfold lossK lossR
  refine congrArg negMean (funext fun r => ?_)
  rw [← rowAdj_own X C D r]
  exact logp_eq _ _ (h r)

end Cert.RowLogProb

end
-- ==== Proof.LibIdx.lean ====
/-
  Indices of arrays of small rank, written by coordinates: an index whose coordinates are given numbers is the index
  built from them.  Used to identify an index computed by a window's block map, or by a contraction's operand map, with
  the index a specification names.
-/
import Idealize.ShloMosaic.Lib.ValueIdx

namespace Cert.Proof.LibIdx

open Idealize.ShloMosaic Idealize.ShloMosaic.ValueIdx

/-- A rank-1 index with the given coordinate is the index built from it. -/
theorem ix1_ext {n0 : Nat} (x : (⟨1, ![n0]⟩ : Shape).Idx) (a : Fin n0) (h0 : (x 0 : ℕ) = a) : x = ix1 a := by
  have e0 : x 0 = a := Fin.ext h0
  exact (eq_ix1 x).trans (by rw [e0]; rfl)

/-- A rank-2 index with the given coordinates is the index built from them. -/
theorem ix2_ext {n0 n1 : Nat} (x : (⟨2, ![n0, n1]⟩ : Shape).Idx) (a : Fin n0) (b : Fin n1)
    (h0 : (x 0 : ℕ) = a) (h1 : (x 1 : ℕ) = b) : x = ix2 a b := by
  have e0 : x 0 = a := Fin.ext h0
  have e1 : x 1 = b := Fin.ext h1
  exact (eq_ix2 x).trans (by rw [e0, e1]; rfl)

/-- A rank-3 index with the given coordinates is the index built from them. -/
theorem ix3_ext {n0 n1 n2 : Nat} (x : (⟨3, ![n0, n1, n2]⟩ : Shape).Idx) (a : Fin n0) (b : Fin n1) (c : Fin n2)
    (h0 : (x 0 : ℕ) = a) (h1 : (x 1 : ℕ) = b) (h2 : (x 2 : ℕ) = c) : x = ix3 a b c := by
  have e0 : x 0 = a := Fin.ext h0
  have e1 : x 1 = b := Fin.ext h1
  have e2 : x 2 = c := Fin.ext h2
  exact (eq_ix3 x).trans (by rw [e0, e1, e2]; rfl)

end Cert.Proof.LibIdx
-- ==== Proof.LibTake.lean ====
/-
  Reading a table lookup along the first axis — `jnp.take(table, positions, axis = 0)` with the default handling of
  positions outside the table — one piece at a time, for any table `[N, D]` and any positions `[R, C]`:

  * a position below 2^31, held as a 32-bit word, read back as a signed integer, and its comparisons with 0 and
    with a bound;
  * a conjunction over an axis (`stablehlo.reduce` by `and` from 1) of words that are all 1 is 1;
  * the gather of one row per position: result entry (r, c, d) is the table's entry (row, d), where row is the
    start index at (r, c, 0) read signed and clamped into 0 … N − 1.
-/
import Idealize.ShloMosaic.Lib.ValueIdx
import Idealize.ShloMosaic.Lib.ReduceAll
import proofs.«126931_j90366111907979_1_alg».proof.Proof.LibIdx

namespace Cert.Proof.LibTake

open Idealize.ShloMosaic Idealize.ShloMosaic.ValueIdx Cert.Proof.LibIdx

/-! ## A small natural number as a 32-bit word, read signed -/

/-- A number below 2^31, as a 32-bit word, reads back signed as itself. -/
theorem toInt_ofNat_small (n : Nat) (h : n < 2147483648) : (BitVec.ofNat 32 n).toInt = (n : Int) := by
  rw [BitVec.toInt_eq_toNat_cond, BitVec.toNat_ofNat]
  have e : n % 2 ^ 32 = n := Nat.mod_eq_of_lt (by omega)
  rw [e]
  split <;> omega

/-- … and so its signed value as a natural number is itself. -/
theorem toInt_toNat_ofNat_small (n : Nat) (h : n < 2147483648) : (BitVec.ofNat 32 n).toInt.toNat = n := by
  rw [toInt_ofNat_small n h]; rfl

/-- It is not negative … -/
theorem cmpi_slt_zero (n : Nat) (h : n < 2147483648) : IntOp.cmpi .slt (BitVec.ofNat 32 n) 0#32 = 0#1 := by
  have e : (BitVec.ofNat 32 n).slt 0#32 = false := by
    rw [BitVec.slt, toInt_ofNat_small n h, decide_eq_false_iff_not]
    show ¬ ((n : Int) < 0)
    omega
  show BitVec.ofBool ((BitVec.ofNat 32 n).slt 0#32) = 0#1
  rw [e]; rfl

/-- … that is, it is at least 0 … -/
theorem cmpi_sge_zero (n : Nat) (h : n < 2147483648) : IntOp.cmpi .sge (BitVec.ofNat 32 n) 0#32 = 1#1 := by
  have e : (0#32 : BitVec 32).sle (BitVec.ofNat 32 n) = true := by
    rw [BitVec.sle, toInt_ofNat_small n h, decide_eq_true_iff]
    show (0 : Int) ≤ (n : Int)
    omega
  show BitVec.ofBool ((0#32 : BitVec 32).sle (BitVec.ofNat 32 n)) = 1#1
  rw [e]; rfl

/-- … and it is at most any bound `k` below 2^31 that it does not exceed. -/
theorem cmpi_sle_bound (n k : Nat) (hk : k < 2147483648) (h : n ≤ k) :
    IntOp.cmpi .sle (BitVec.ofNat 32 n) (BitVec.ofNat 32 k) = 1#1 := by
  have e : (BitVec.ofNat 32 n).sle (BitVec.ofNat 32 k) = true := by
    rw [BitVec.sle, toInt_ofNat_small n (by omega), toInt_ofNat_small k hk, decide_eq_true_iff]
    omega
  show BitVec.ofBool ((BitVec.ofNat 32 n).sle (BitVec.ofNat 32 k)) = 1#1
  rw [e]; rfl

/-! ## A conjunction of ones -/

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have e : IntOp.andi (1#1) (1#1) = 1#1 := by decide
    rw [List.foldl_cons, hf a, e]
    exact foldl_andi_ones f hf l

/-- A `stablehlo.reduce` by `and`, from an initial value 1, of an array whose entries are all 1 is 1 at every index,
    whatever axes it reduces. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1)
    (j : t.Idx) : Host.reduce IntOp.andi x init h hu j = 1#1 := by
  rw [Host.reduce_eq_foldl, hinit]
  exact foldl_andi_ones x hx _

/-! ## One table row per position -/

section TakeRows
variable {α : Type}

/-- The dimension numbers of `table[positions]` for a table `[N, D]`, start indices `[R, C, 1]` and a result
    `[R, C, D]`: the row axis collapsed and indexed, the feature axis kept whole as the result's last axis. -/
abbrev takeRowsDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The start-indices index `[r, c, 0]` under result index `(r, c, d)`. -/
abbrev startIdx {R C D : Nat} (y : (⟨3, ![R, C, D]⟩ : Shape).Idx) : (⟨3, ![R, C, 1]⟩ : Shape).Idx :=
  fun a => match a with
    | ⟨0, _⟩ => ⟨(y 0).val, (y 0).isLt⟩
    | ⟨1, _⟩ => ⟨(y 1).val, (y 1).isLt⟩
    | ⟨2, _⟩ => ⟨0, Nat.one_pos⟩

/-- THE ROW GATHER READ AT `(r, c, d)`: the table at (row, d), the row being the start index at `[r, c, 0]` read signed
    and clamped into `[0, N − 1]`. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (y : (⟨3, ![R, C, D]⟩ : Shape).Idx) :
    Host.gather (takeRowsDims N D R C wf) x idx y
      = x (ix2 (⟨min (idx (startIdx y)).toInt.toNat (N - 1), by omega⟩ : Fin N) (⟨(y 2).val, (y 2).isLt⟩ : Fin D)) := by
  unfold Host.gather
  refine congrArg x (ix2_ext _ _ _ ?_ ?_)
  · show (takeRowsDims N D R C wf).start y idx 0 + (takeRowsDims N D R C wf).batchCoord y 0
        + (takeRowsDims N D R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRowsDims N D R C wf).startIndexMap from List.mem_singleton.mpr rfl)]
    have hsi : (takeRowsDims N D R C wf).siIdx y ⟨List.idxOf (0 : Fin 2) (takeRowsDims N D R C wf).startIndexMap,
        List.idxOf_lt_length_iff.2 (List.mem_singleton.mpr rfl)⟩ = startIdx y := by
      funext b; refine Fin.ext ?_
      match b with
      | ⟨0, _⟩ => rfl
      | ⟨1, _⟩ => rfl
      | ⟨2, _⟩ => rfl
    rw [hsi]
    rfl
  · show (takeRowsDims N D R C wf).start y idx 1 + (takeRowsDims N D R C wf).batchCoord y 1
        + (takeRowsDims N D R C wf).offCoord y 1 = (y 2).val
    have hs : (takeRowsDims N D R C wf).start y idx 1 = 0 := by
      unfold GatherDims.start
      rw [dif_neg (show (1 : Fin 2) ∉ ([0] : List (Fin 2)) from by decide)]
    have ho : (takeRowsDims N D R C wf).offCoord y 1 = (y 2).val := by
      unfold GatherDims.offCoord
      rw [dif_pos ((GatherDims.mem_sKept _ _).mpr ⟨(show (1 : Fin 2) ∉ ([0] : List (Fin 2)) from by decide), List.not_mem_nil⟩)]
      rfl
    rw [hs, ho, GatherDims.batchCoord_eq_zero _ _ _ List.not_mem_nil]
    omega

end TakeRows

end Cert.Proof.LibTake
-- ==== Proof.RefLogits.lean ====
/-
  The reference program's logits, read at an index.

  The logits array has one row per (sample, group) pair and one column per candidate: the entry at row 8 s + g and
  column t is the similarity of the pair's embedding with candidate t — their inner product times thirty, clipped
  below at the floor — except on the pair's own candidate, t = s, where the program writes the clipped diagonal value
  instead.  The program writes the diagonal with a scatter whose update (s, g) lands at position (s, g, s); since
  distinct updates land at distinct positions, the array after the scatter is the diagonal value on the landing
  positions and the product everywhere else.

  The first section reads an overwriting scatter at an index for any dimension numbers; the second evaluates the
  landing position for this program's dimension numbers and index array; the third assembles the row.
-/
import proofs.«126931_j90366111907979_1_alg».proof.Proof.RefRead
import proofs.«126931_j90366111907979_1_alg».proof.Proof.RowLogProb
import proofs.«126931_j90366111907979_1_alg».proof.Proof.LibIdx
import proofs.«126931_j90366111907979_1_alg».proof.Proof.LibTake

noncomputable section

namespace Cert.ReferenceIdeal.RefLogits

open Idealize.ShloMosaic Idealize.ShloMosaic.ValueIdx

/-! ## An overwriting scatter read at an index -/

section ScatterSet

/-- A left fold of function updates, read at one point `i'`, when no step of the list touches `i'`: the initial
    function's value.  `P n` says that step `n` writes at `i'`. -/
theorem foldl_apply_of_forall_miss {ι κ α : Type} (step : (ι → α) → κ → ι → α) (P : κ → Prop) (i' : ι)
    (hmiss : ∀ r n, ¬ P n → step r n i' = r i') (l : List κ) :
    ∀ x : ι → α, (∀ n ∈ l, ¬ P n) → l.foldl step x i' = x i' := by
  induction l with
  | nil => intro x _; rfl
  | cons a l ih =>
    intro x h
    rw [List.foldl_cons, ih (step x a) (fun n hn => h n (List.mem_cons_of_mem _ hn)),
      hmiss x a (h a List.mem_cons_self)]

/-- A left fold of function updates, read at one point `i'`, when exactly one element `n0` of the list writes at
    `i'` (it may occur more than once): the value that step writes.  The steps after the last occurrence of `n0`
    leave `i'` alone, and that occurrence overwrites whatever was there. -/
theorem foldl_apply_of_unique_hit {ι κ α : Type} (step : (ι → α) → κ → ι → α) (P : κ → Prop) (v : κ → α) (i' : ι)
    (hhit : ∀ r n, P n → step r n i' = v n) (hmiss : ∀ r n, ¬ P n → step r n i' = r i') (x : ι → α)
    (n0 : κ) (hP : P n0) (l : List κ) :
    n0 ∈ l → (∀ n ∈ l, P n → n = n0) → l.foldl step x i' = v n0 := by
  induction l using List.reverseRecOn with
  | nil => intro h; exact absurd h List.not_mem_nil
  | append_singleton l a ih =>
    intro hmem huniq
    rw [List.foldl_append, List.foldl_cons, List.foldl_nil]
    by_cases ha : P a
    · rw [hhit _ _ ha, huniq a (List.mem_append_right _ (List.mem_singleton.mpr rfl)) ha]
    · rw [hmiss _ _ ha]
      have hne : n0 ≠ a := fun e => ha (e ▸ hP)
      have hm : n0 ∈ l := by
        rcases List.mem_append.mp hmem with h | h
        · exact h
        · exact absurd (List.mem_singleton.mp h) hne
      exact ih hm (fun n hn => huniq n (List.mem_append_left _ hn))

variable {α : Type} {s si u : Shape} {w : Nat}

/-- One step of an overwriting scatter, read at `i'`, when the update lands on `i'`: the update. -/
theorem scatter_step_hit (d : ScatterDims s si u) (idx : IVec si w) (upd : u.Idx → α) (i' : s.Idx)
    (r : s.Idx → α) (n : Fin u.numel) (h : d.resultIdx? (u.rowMajor.symm n) idx = some i') :
    (match d.resultIdx? (u.rowMajor.symm n) idx with
      | some i => fun i' => if i' = i then (fun (_ b : α) => b) (r i) (upd (u.rowMajor.symm n)) else r i'
      | none => r) i' = upd (u.rowMajor.symm n) := by
  rw [h]
  exact if_pos rfl

/-- One step of an overwriting scatter, read at `i'`, when the update lands elsewhere or is dropped: unchanged. -/
theorem scatter_step_miss (d : ScatterDims s si u) (idx : IVec si w) (upd : u.Idx → α) (i' : s.Idx)
    (r : s.Idx → α) (n : Fin u.numel) (h : ¬ d.resultIdx? (u.rowMajor.symm n) idx = some i') :
    (match d.resultIdx? (u.rowMajor.symm n) idx with
      | some i => fun i' => if i' = i then (fun (_ b : α) => b) (r i) (upd (u.rowMajor.symm n)) else r i'
      | none => r) i' = r i' := by
  cases hres : d.resultIdx? (u.rowMajor.symm n) idx with
  | none => rfl
  | some i =>
    have hne : ¬ i' = i := fun e => h (by rw [hres, e])
    exact if_neg hne

/-- AN OVERWRITING SCATTER AT A POSITION EXACTLY ONE UPDATE LANDS ON: that update.  The scatter's body returns the
    update (`x.at[…].set(v)`); `j` is the one update index whose result index is `i'`. -/
theorem scatter_set_apply_of_landing (d : ScatterDims s si u) (x : s.Idx → α) (idx : IVec si w) (upd : u.Idx → α)
    (i' : s.Idx) (j : u.Idx) (hj : d.resultIdx? j idx = some i')
    (huniq : ∀ j', d.resultIdx? j' idx = some i' → j' = j) :
    Host.scatter d (fun _ b => b) x idx upd i' = upd j := by
  unfold Host.scatter
  have hsymm : u.rowMajor.symm (u.rowMajor j) = j := Equiv.symm_apply_apply _ _
  refine (foldl_apply_of_unique_hit _ (fun n => d.resultIdx? (u.rowMajor.symm n) idx = some i')
    (fun n => upd (u.rowMajor.symm n)) i' (fun r n h => scatter_step_hit d idx upd i' r n h)
    (fun r n h => scatter_step_miss d idx upd i' r n h) x (u.rowMajor j) (by rw [hsymm]; exact hj)
    (List.finRange u.numel) (List.mem_finRange _) ?_).trans (by rw [hsymm])
  intro n _ hn
  have := huniq _ hn
  rw [← this]; exact (Equiv.apply_symm_apply _ _).symm

/-- AN OVERWRITING SCATTER AT A POSITION NO UPDATE LANDS ON: the operand. -/
theorem scatter_set_apply_of_no_landing (d : ScatterDims s si u) (x : s.Idx → α) (idx : IVec si w) (upd : u.Idx → α)
    (i' : s.Idx) (hnone : ∀ j, ¬ d.resultIdx? j idx = some i') :
    Host.scatter d (fun _ b => b) x idx upd i' = x i' := by
  unfold Host.scatter
  exact foldl_apply_of_forall_miss _ (fun n => d.resultIdx? (u.rowMajor.symm n) idx = some i') i'
    (fun r n h => scatter_step_miss d idx upd i' r n h) (List.finRange u.numel) x (fun n _ => hnone _)

end ScatterSet

/-! ## Where this program's updates land -/

section Landing

open Cert.ReferenceIdeal Cert.ReferenceIdeal.Gen Cert.ReferenceIdeal.ReadP Cert.Proof.LibIdx Cert.Proof.LibTake

/-- The scatter's dimension numbers: update axis 1 is the window axis and goes to operand axis 1; operand axes 0 and 2
    are indexed by the two components of the index vector. -/
abbrev dS : ScatterDims S2048x8x2048 S2048x2 S2048x8 := scatter_S2048x8x2048_S2048x2_S2048x8_1_02_02_1

/-- The sample's number as a word: the iota is never negative, so the wrap-around branch is not taken. -/
theorem word_v33 (i : S2048.Idx) : val_main_v33 (F := Ideal) i = BitVec.ofNat 32 (i 0).val := by
  have h : (i 0).val < 2048 := (i 0).isLt
  rw [val_main_v33_apply, val_main_v30_apply, val_main_v29_apply, val_main_c_apply, val_main_v26_apply,
    cmpi_slt_zero _ (by omega), select_zero]

/-- The same for the second copy of that word. -/
theorem word_v38 (i : S2048.Idx) : val_main_v38 (F := Ideal) i = BitVec.ofNat 32 (i 0).val := by
  have h : (i 0).val < 2048 := (i 0).isLt
  rw [val_main_v38_apply, val_main_v35_apply, val_main_v34_apply, val_main_c_10_apply, val_main_v26_apply,
    cmpi_slt_zero _ (by omega), select_zero]

/-- The index array: both components of sample `p`'s index vector are the word of `p`. -/
theorem word_v41 (p : Fin 2048) (c : Fin 2) : val_main_v41 (F := Ideal) (ix2 p c) = BitVec.ofNat 32 p.val := by
  unfold val_main_v41
  match c with
  | ⟨0, h0⟩ =>
    refine (concatenate_pair_apply_left (t := S2048x2) (s₁ := S2048x1) (s₂ := S2048x1) (1 : Fin 2)
      (val_main_v39 (F := Ideal)) (val_main_v40 (F := Ideal)) concatenates_S2048x1_S2048x1_S2048x2_d1
      (ix2 p (⟨0, h0⟩ : Fin 2)) rfl (ix2 p (0 : Fin 1)) ?_).trans ?_
    · intro b
      match b with
      | ⟨0, _⟩ => rfl
      | ⟨1, _⟩ => rfl
    · rw [val_main_v39_apply, word_v33]
  | ⟨1, h1⟩ =>
    refine (concatenate_pair_apply_right (t := S2048x2) (s₁ := S2048x1) (s₂ := S2048x1) (1 : Fin 2)
      (val_main_v39 (F := Ideal)) (val_main_v40 (F := Ideal)) concatenates_S2048x1_S2048x1_S2048x2_d1
      (ix2 p (⟨1, h1⟩ : Fin 2)) rfl rfl (ix2 p (0 : Fin 1)) ?_ ?_).trans ?_
    · intro b hb
      match b with
      | ⟨0, _⟩ => rfl
      | ⟨1, _⟩ => exact absurd rfl hb
    · rfl
    · rw [val_main_v40_apply, word_v38]

variable (idx : IVec S2048x2 32) (p : Fin 2048) (g : Fin 8)

theorem start_0 : dS.start (ix2 p g) idx (0 : Fin 3) = (idx (ix2 p (0 : Fin 2))).toInt := by
  unfold ScatterDims.start
  rw [dif_pos (show (0 : Fin 3) ∈ dS.scatterDimsToOperandDims by decide)]
  refine congrArg (fun k => (idx k).toInt) (funext fun b => Fin.ext ?_)
  match b with
  | ⟨0, _⟩ => rfl
  | ⟨1, _⟩ => rfl

theorem start_1 : dS.start (ix2 p g) idx (1 : Fin 3) = 0 := by
  unfold ScatterDims.start
  rw [dif_neg (show ¬ (1 : Fin 3) ∈ dS.scatterDimsToOperandDims by decide)]

theorem start_2 : dS.start (ix2 p g) idx (2 : Fin 3) = (idx (ix2 p (1 : Fin 2))).toInt := by
  unfold ScatterDims.start
  rw [dif_pos (show (2 : Fin 3) ∈ dS.scatterDimsToOperandDims by decide)]
  refine congrArg (fun k => (idx k).toInt) (funext fun b => Fin.ext ?_)
  match b with
  | ⟨0, _⟩ => rfl
  | ⟨1, _⟩ => rfl

theorem window_0 : dS.window (ix2 p g) (0 : Fin 3) = 0 := by
  unfold ScatterDims.window
  rw [dif_neg (show ¬ (0 : Fin 3) ∈ dS.sKept by decide)]

theorem window_1 : dS.window (ix2 p g) (1 : Fin 3) = g.val := by
  unfold ScatterDims.window
  rw [dif_pos (show (1 : Fin 3) ∈ dS.sKept by decide)]
  rfl

theorem window_2 : dS.window (ix2 p g) (2 : Fin 3) = 0 := by
  unfold ScatterDims.window
  rw [dif_neg (show ¬ (2 : Fin 3) ∈ dS.sKept by decide)]

/-- UPDATE (p, g) LANDS AT (p, g, p), whenever both components of each sample's index vector are the sample's word. -/
theorem landing (hidx : ∀ (q : Fin 2048) (c : Fin 2), idx (ix2 q c) = BitVec.ofNat 32 q.val) :
    dS.resultIdx? (ix2 p g) idx = some (ix3 p g p) := by
  have hp : p.val < 2048 := p.isLt
  have hg : g.val < 8 := g.isLt
  have e0 : dS.start (ix2 p g) idx (0 : Fin 3) + dS.window (ix2 p g) (0 : Fin 3) = (p.val : Int) := by
    rw [start_0, window_0, hidx, toInt_ofNat_small _ (by omega)]; simp
  have e1 : dS.start (ix2 p g) idx (1 : Fin 3) + dS.window (ix2 p g) (1 : Fin 3) = (g.val : Int) := by
    rw [start_1, window_1]; simp
  have e2 : dS.start (ix2 p g) idx (2 : Fin 3) + dS.window (ix2 p g) (2 : Fin 3) = (p.val : Int) := by
    rw [start_2, window_2, hidx, toInt_ofNat_small _ (by omega)]; simp
  have b0 : 0 ≤ dS.start (ix2 p g) idx (0 : Fin 3) + dS.window (ix2 p g) (0 : Fin 3)
      ∧ dS.start (ix2 p g) idx (0 : Fin 3) + dS.window (ix2 p g) (0 : Fin 3) < (2048 : Nat) := by
    rw [e0]; omega
  have b1 : 0 ≤ dS.start (ix2 p g) idx (1 : Fin 3) + dS.window (ix2 p g) (1 : Fin 3)
      ∧ dS.start (ix2 p g) idx (1 : Fin 3) + dS.window (ix2 p g) (1 : Fin 3) < (8 : Nat) := by
    rw [e1]; omega
  have b2 : 0 ≤ dS.start (ix2 p g) idx (2 : Fin 3) + dS.window (ix2 p g) (2 : Fin 3)
      ∧ dS.start (ix2 p g) idx (2 : Fin 3) + dS.window (ix2 p g) (2 : Fin 3) < (2048 : Nat) := by
    rw [e2]; omega
  have hall : ∀ a, 0 ≤ dS.start (ix2 p g) idx a + dS.window (ix2 p g) a
      ∧ dS.start (ix2 p g) idx a + dS.window (ix2 p g) a < S2048x8x2048.size a := fun a =>
    match a with
    | ⟨0, _⟩ => b0
    | ⟨1, _⟩ => b1
    | ⟨2, _⟩ => b2
  unfold ScatterDims.resultIdx?
  rw [dif_pos hall]
  refine congrArg some (ix3_ext _ p g p ?_ ?_ ?_)
  · show (dS.start (ix2 p g) idx (0 : Fin 3) + dS.window (ix2 p g) (0 : Fin 3)).toNat = p.val
    rw [e0]; rfl
  · show (dS.start (ix2 p g) idx (1 : Fin 3) + dS.window (ix2 p g) (1 : Fin 3)).toNat = g.val
    rw [e1]; rfl
  · show (dS.start (ix2 p g) idx (2 : Fin 3) + dS.window (ix2 p g) (2 : Fin 3)).toNat = p.val
    rw [e2]; rfl

/-- Distinct updates land at distinct positions: the only update landing at (p, g, p) is (p, g). -/
theorem landing_unique (hidx : ∀ (q : Fin 2048) (c : Fin 2), idx (ix2 q c) = BitVec.ofNat 32 q.val)
    (j' : S2048x8.Idx) (h : dS.resultIdx? j' idx = some (ix3 p g p)) : j' = ix2 p g := by
  obtain ⟨p', g', rfl⟩ : ∃ (p' : Fin 2048) (g' : Fin 8), j' = ix2 p' g' := ⟨j' 0, j' 1, eq_ix2 j'⟩
  rw [landing idx p' g' hidx] at h
  have e := Option.some.inj h
  have e0 : p' = p := congrFun e (0 : Fin 3)
  have e1 : g' = g := congrFun e (1 : Fin 3)
  rw [e0, e1]

/-- No update lands off the diagonal: a landing position's first and last coordinates agree. -/
theorem no_landing (hidx : ∀ (q : Fin 2048) (c : Fin 2), idx (ix2 q c) = BitVec.ofNat 32 q.val)
    (t : Fin 2048) (hne : ¬ t = p) (j' : S2048x8.Idx) : ¬ dS.resultIdx? j' idx = some (ix3 p g t) := by
  obtain ⟨p', g', rfl⟩ : ∃ (p' : Fin 2048) (g' : Fin 8), j' = ix2 p' g' := ⟨j' 0, j' 1, eq_ix2 j'⟩
  rw [landing idx p' g' hidx]
  intro h
  have e := Option.some.inj h
  have e0 : p' = p := congrFun e (0 : Fin 3)
  have e2 : p' = t := congrFun e (2 : Fin 3)
  exact hne (e2.symm.trans e0)

end Landing

/-! ## The logits at an index -/

section Logits

open Cert.ReferenceIdeal Cert.ReferenceIdeal.Gen Cert.ReferenceIdeal.ReadP Cert.Proof.LibIdx Cert.RowLogProb

/-- After the scatter, the diagonal position (p, g, p) holds the diagonal value of (p, g). -/
theorem scattered_own (x : (⟨S2048x8x128, .f32⟩ : BufTy).Contents (Elt Ideal)) (p : Fin 2048) (g : Fin 8) :
    val_main_v42 (F := Ideal) x (ix3 p g p) = val_main_v28 (F := Ideal) x (ix2 p g) :=
  scatter_set_apply_of_landing dS (val_main_v25 (F := Ideal) x) (val_main_v41 (F := Ideal))
    (val_main_v28 (F := Ideal) x) (ix3 p g p) (ix2 p g)
    (landing (val_main_v41 (F := Ideal)) p g word_v41)
    (fun j' h => landing_unique (val_main_v41 (F := Ideal)) p g word_v41 j' h)

/-- After the scatter, a position (p, g, t) off the diagonal still holds the scaled inner product. -/
theorem scattered_other (x : (⟨S2048x8x128, .f32⟩ : BufTy).Contents (Elt Ideal)) (p : Fin 2048) (g : Fin 8)
    (t : Fin 2048) (hne : ¬ t = p) :
    val_main_v42 (F := Ideal) x (ix3 p g t) = val_main_v25 (F := Ideal) x (ix3 p g t) :=
  scatter_set_apply_of_no_landing dS (val_main_v25 (F := Ideal) x) (val_main_v41 (F := Ideal))
    (val_main_v28 (F := Ideal) x) (ix3 p g t)
    (fun j' => no_landing (val_main_v41 (F := Ideal)) p g word_v41 t hne j')

/-- THE LOGITS AT ROW r = 8 s + g AND COLUMN t: the diagonal value clipped at the floor when t = s, else thirty times
    the inner product of the pair's embedding with candidate t, clipped at the floor. -/
theorem logits_apply (x : (⟨S2048x8x128, .f32⟩ : BufTy).Contents (Elt Ideal)) (r : Fin 16384) (t : Fin 2048) :
    ReadP.val_main_v44 (F := Ideal) x (ix2 r t)
      = Cert.RowLogProb.rowAdj (ReadP.val_main_v3 (F := Ideal) x) (ReadP.val_main_v22 (F := Ideal) x)
          (ReadP.val_main_v28 (F := Ideal) x) r t := by
  have hr : r.val < 16384 := r.isLt
  have ht : t.val < 2048 := t.isLt
  have hidx : idx_main_v44 (ix2 r t) = ix3 (sOf r) (gOf r) t :=
    ix3_ext _ _ _ _
      (by show (r.val * 2048 + t.val) / 16384 = r.val / 8; omega)
      (by show (r.val * 2048 + t.val) / 2048 % 8 = r.val % 8; omega)
      (by show (r.val * 2048 + t.val) % 2048 = t.val; omega)
  rw [val_main_v44_apply, hidx, val_main_v43_apply, val_main_call6_v1_apply, val_main_call6_v0_apply,
    val_main_cst_12_apply]
  unfold rowAdj adj
  by_cases hts : t = sOf r
  · rw [if_pos hts, hts, scattered_own]
    show max (Ideal.ofBits .f32 0x358637BD#32) _ = max _ (Ideal.ofBits .f32 0x358637BD#32)
    exact max_comm _ _
  · rw [if_neg hts, scattered_other x _ _ _ hts, val_main_v25_apply, val_main_v24_apply, val_main_cst_7_apply,
      val_main_v23_apply]
    have el : ∀ k : Fin 128, lidx_main_v23 (ix3 (sOf r) (gOf r) t) k = ix3 (sOf r) (gOf r) k := fun k =>
      funext fun a => Fin.ext (by
        match a with
        | ⟨0, _⟩ => rfl
        | ⟨1, _⟩ => rfl
        | ⟨2, _⟩ => rfl)
    have er : ∀ k : Fin 128, ridx_main_v23 (ix3 (sOf r) (gOf r) t) k = ix2 t k := fun k =>
      funext fun a => Fin.ext (by
        match a with
        | ⟨0, _⟩ => rfl
        | ⟨1, _⟩ => rfl)
    have hsum : (∑ k : Fin 128, val_main_v3 (F := Ideal) x (lidx_main_v23 (ix3 (sOf r) (gOf r) t) k)
          * val_main_v22 (F := Ideal) x (ridx_main_v23 (ix3 (sOf r) (gOf r) t) k))
        = ∑ d : Fin 128, val_main_v3 (F := Ideal) x (ix3 (sOf r) (gOf r) d) * val_main_v22 (F := Ideal) x (ix2 t d) :=
      Finset.sum_congr rfl (fun k _ => by rw [el k, er k])
    rw [hsum]
    show max (Ideal.ofBits .f32 0x358637BD#32) (Ideal.ofBits .f32 0x41F00000#32 * _)
      = max (_ * Ideal.ofBits .f32 0x41F00000#32) (Ideal.ofBits .f32 0x358637BD#32)
    rw [max_comm, mul_comm (Ideal.ofBits .f32 0x41F00000#32)]

end Logits

end Cert.ReferenceIdeal.RefLogits
-- ==== Proof.RefSoftmax.lean ====
/-
  The reference program's tail: the row-wise log-softmax of the logits, the pick of each row's own column, and minus
  the mean of the picks.

  Row r of the logits L (16384 rows, 2048 columns) has maximum M_r (a fold of max from −∞). The log-softmax subtracts
  M_r and then log Σ_t exp (L_{r,t} − M_r) from every entry. The pick reads row r at column r / 8: the start indices
  (r, r / 8) are non-negative and inside the array, so reading them as signed words and clamping them changes nothing.
  The result is minus the sum of the picks, from the zero word, divided by the word of 16384.
-/
import proofs.«126931_j90366111907979_1_alg».proof.Proof.RefRead
import proofs.«126931_j90366111907979_1_alg».proof.Proof.RowLogProb
import proofs.«126931_j90366111907979_1_alg».proof.Proof.LibIdx
import proofs.«126931_j90366111907979_1_alg».proof.Proof.LibTake

noncomputable section

namespace Cert.ReferenceIdeal.RefSoftmax

open Cert.ReferenceIdeal Cert.ReferenceIdeal.Gen Cert.ReferenceIdeal.ReadP
open Idealize.ShloMosaic Idealize.ShloMosaic.ValueIdx Cert.Proof.LibIdx Cert.Proof.LibTake

/-! ## The word of −∞ -/

/-- The word of −∞ is the bottom of the extended reals. -/
theorem negInf_word : Ideal.ofBits .f32 0xFF800000#32 = (⊥ : EReal) := by simp [Ideal.ofBits, Ideal.ieee]

/-! ## The row maximum -/

/-- A row index with column `k` put back is the index (r, k). -/
theorem lift_row (h : S16384x2048.Reduces [1] S16384) (r : Fin 16384) (k : Fin (S16384x2048.size 1)) :
    h.lift (ix1 r) k = ix2 r (⟨k.val, k.isLt⟩ : Fin 2048) := by
  funext c; apply Fin.ext
  fin_cases c <;> rfl

/-- From −∞ the reduction by maximum over the columns is, at row `r`, the row's maximum. -/
theorem reduce_max_row (L : S16384x2048.Idx → EReal) (r : Fin 16384) :
    Host.reduce (FloatOps.maximumf (F := Ideal) (φ := .f32)) L (constant (F := Ideal) S_ .f32 0xFF800000#32)
        reducesTo_S16384x2048_S16384_d1 h_S_ (ix1 r)
      = Cert.RowLogProb.rowMax (fun t => L (ix2 r t)) := by
  have h : S16384x2048.Reduces [1] S16384 := by decide
  refine (Host.reduce_eq_fold_single (FloatOps.maximumf (F := Ideal) (φ := .f32)) L _ reducesTo_S16384x2048_S16384_d1 h h_S_
    (ix1 r)).trans ?_
  have hf : (L ∘ h.lift (ix1 r)) = fun k : Fin 2048 => L (ix2 r k) := funext fun k => congrArg L (lift_row h r k)
  unfold Cert.RowLogProb.rowMax
  show Finset.fold max (Ideal.ofBits .f32 0xFF800000#32) (L ∘ h.lift (ix1 r)) (Finset.univ : Finset (Fin 2048)) = _
  rw [hf, negInf_word]
  rfl

/-! ## The pick -/

/-- The pick at row `r`: the operand at (row, column) = (a, b), where a and b are the two start indices of row `r`, each
    read signed and clamped into the array. -/
theorem gather_apply {α : Type} {w : Nat} (X : S16384x2048.Idx → α) (idx : IVec S16384x2 w) (r : Fin 16384)
    (a : Fin 16384) (b : Fin 2048) (ha : min (idx (ix2 r 0)).toInt.toNat (16384 - 1) = a.val)
    (hb : min (idx (ix2 r 1)).toInt.toNat (2048 - 1) = b.val) :
    Host.gather gather_S16384x2048_S16384x2_S16384_n_01_n_n_01_1_11 X idx (ix1 r) = X (ix2 a b) := by
  unfold Host.gather
  refine congrArg X (ix2_ext _ _ _ ?_ ?_)
  · show gather_S16384x2048_S16384x2_S16384_n_01_n_n_01_1_11.start (ix1 r) idx 0
        + gather_S16384x2048_S16384x2_S16384_n_01_n_n_01_1_11.batchCoord (ix1 r) 0
        + gather_S16384x2048_S16384x2_S16384_n_01_n_n_01_1_11.offCoord (ix1 r) 0 = a.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S16384x2048_S16384x2_S16384_n_01_n_n_01_1_11.startIndexMap from by decide)]
    have hsi : gather_S16384x2048_S16384x2_S16384_n_01_n_n_01_1_11.siIdx (ix1 r)
        ⟨List.idxOf (0 : Fin 2) gather_S16384x2048_S16384x2_S16384_n_01_n_n_01_1_11.startIndexMap,
          List.idxOf_lt_length_iff.2 (by decide)⟩ = ix2 r 0 := by
      funext c; refine Fin.ext ?_
      match c with
      | ⟨0, _⟩ => rfl
      | ⟨1, _⟩ => rfl
    rw [hsi]
    exact ha
  · show gather_S16384x2048_S16384x2_S16384_n_01_n_n_01_1_11.start (ix1 r) idx 1
        + gather_S16384x2048_S16384x2_S16384_n_01_n_n_01_1_11.batchCoord (ix1 r) 1
        + gather_S16384x2048_S16384x2_S16384_n_01_n_n_01_1_11.offCoord (ix1 r) 1 = b.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S16384x2048_S16384x2_S16384_n_01_n_n_01_1_11.startIndexMap from by decide)]
    have hsi : gather_S16384x2048_S16384x2_S16384_n_01_n_n_01_1_11.siIdx (ix1 r)
        ⟨List.idxOf (1 : Fin 2) gather_S16384x2048_S16384x2_S16384_n_01_n_n_01_1_11.startIndexMap,
          List.idxOf_lt_length_iff.2 (by decide)⟩ = ix2 r 1 := by
      funext c; refine Fin.ext ?_
      match c with
      | ⟨0, _⟩ => rfl
      | ⟨1, _⟩ => rfl
    rw [hsi]
    exact hb

/-! ## The start indices -/

/-- The row counter, as a word, is not negative, so the wrap-around of negative positions leaves it. -/
theorem rowWord (r : Fin 16384) : val_main_v60 (F := Ideal) (ix2 r (0 : Fin 1)) = BitVec.ofNat 32 r.val := by
  rw [val_main_v60_apply, val_main_v54_apply, val_main_v51_apply, val_main_v49_apply, val_main_v50_apply,
    val_main_c_13_apply]
  show Scalar.select (IntOp.cmpi .slt (BitVec.ofNat 32 r.val) 0#32) _ (BitVec.ofNat 32 r.val) = _
  rw [cmpi_slt_zero r.val (by omega), select_zero]

/-- The speaker counter repeated over the eight utterances and flattened: at row `r` the word of `r / 8`. -/
theorem speakerWord0 (r : Fin 16384) : val_main_v47 (F := Ideal) (ix1 r) = BitVec.ofNat 32 (r.val / 8) := by
  rw [val_main_v47_apply, val_main_v46_apply, val_main_v45_apply]

/-- It is not negative either. -/
theorem speakerWord (r : Fin 16384) : val_main_v61 (F := Ideal) (ix2 r (0 : Fin 1)) = BitVec.ofNat 32 (r.val / 8) := by
  have e : idx_main_v61 (ix2 r (0 : Fin 1)) = ix1 r := ix1_ext _ _ rfl
  rw [val_main_v61_apply, val_main_v59_apply, val_main_v56_apply, val_main_v55_apply, val_main_c_15_apply, e,
    speakerWord0, cmpi_slt_zero _ (by omega), select_zero]

/-- The start indices' first column is the row counter … -/
theorem start_col0 (r : Fin 16384) :
    val_main_v62 (F := Ideal) (ix2 r (0 : Fin 2)) = val_main_v60 (F := Ideal) (ix2 r (0 : Fin 1)) := by
  unfold val_main_v62
  generalize val_main_v60 (F := Ideal) = p
  generalize val_main_v61 (F := Ideal) = q
  exact concatenate_pair_apply_left 1 p q concatenates_S16384x1_S16384x1_S16384x2_d1 (ix2 r (0 : Fin 2)) rfl
    (ix2 r (0 : Fin 1)) (fun c => by match c with | ⟨0, _⟩ => rfl | ⟨1, _⟩ => rfl)

/-- … and their second column the speaker counter. -/
theorem start_col1 (r : Fin 16384) :
    val_main_v62 (F := Ideal) (ix2 r (1 : Fin 2)) = val_main_v61 (F := Ideal) (ix2 r (0 : Fin 1)) := by
  unfold val_main_v62
  generalize val_main_v60 (F := Ideal) = p
  generalize val_main_v61 (F := Ideal) = q
  exact concatenate_pair_apply_right 1 p q concatenates_S16384x1_S16384x1_S16384x2_d1 (ix2 r (1 : Fin 2)) rfl rfl
    (ix2 r (0 : Fin 1)) (fun c hc => by
      match c with
      | ⟨0, _⟩ => rfl
      | ⟨1, _⟩ => exact absurd rfl hc) rfl

/-- The pick reads row `r` of the log-softmax at the row's own speaker's column. -/
theorem pick_apply (x : (⟨S2048x8x128, .f32⟩ : BufTy).Contents (Elt Ideal)) (r : Fin 16384) :
    val_main_v63 (F := Ideal) x (ix1 r) = val_main_v48 (F := Ideal) x (ix2 r (Cert.RowLogProb.sOf r)) := by
  unfold val_main_v63
  generalize val_main_v48 (F := Ideal) x = X
  refine gather_apply X _ r r (Cert.RowLogProb.sOf r) ?_ ?_
  · rw [start_col0, rowWord, toInt_toNat_ofNat_small _ (by omega)]
    omega
  · rw [start_col1, speakerWord, toInt_toNat_ofNat_small _ (by omega)]
    show min (r.val / 8) (2048 - 1) = r.val / 8
    omega

/-! ## The log-softmax of a row -/

/-- The row maximum the program computes (the reduction, then a maximum with −∞ once more). -/
theorem rowMax_apply (x : (⟨S2048x8x128, .f32⟩ : BufTy).Contents (Elt Ideal)) (r : Fin 16384) :
    val_main_call7_v2 (F := Ideal) x (ix1 r)
      = Cert.RowLogProb.rowMax (fun t => val_main_v44 (F := Ideal) x (ix2 r t)) := by
  have e : val_main_call7_v0 (F := Ideal) x (ix1 r)
      = Cert.RowLogProb.rowMax (fun t => val_main_v44 (F := Ideal) x (ix2 r t)) := by
    unfold val_main_call7_v0
    generalize val_main_v44 (F := Ideal) x = L
    exact reduce_max_row L r
  rw [val_main_call7_v2_apply, val_main_call7_v1_apply, val_main_call7_cst_0_apply, e]
  show max (Ideal.ofBits .f32 0xFF800000#32) _ = _
  rw [negInf_word]
  exact max_eq_right bot_le

/-- An entry less its row's maximum. -/
theorem shifted_apply (x : (⟨S2048x8x128, .f32⟩ : BufTy).Contents (Elt Ideal)) (r : Fin 16384) (t : Fin 2048) :
    val_main_call7_v5 (F := Ideal) x (ix2 r t)
      = val_main_v44 (F := Ideal) x (ix2 r t)
        - Cert.RowLogProb.rowMax (fun k => val_main_v44 (F := Ideal) x (ix2 r k)) := by
  have e : idx_main_call7_v3 (idx_main_call7_v4 (ix2 r t)) = ix1 r := ix1_ext _ _ rfl
  rw [val_main_call7_v5_apply, val_main_call7_v4_apply, val_main_call7_v3_apply, e, rowMax_apply]
  rfl

/-- The row's sum of exponentials (from the zero word). -/
theorem expSum_apply (x : (⟨S2048x8x128, .f32⟩ : BufTy).Contents (Elt Ideal)) (r : Fin 16384) :
    val_main_call7_v7 (F := Ideal) x (ix1 r)
      = ∑ k : Fin 2048, Ideal.exp (val_main_v44 (F := Ideal) x (ix2 r k)
          - Cert.RowLogProb.rowMax (fun k => val_main_v44 (F := Ideal) x (ix2 r k))) := by
  rw [val_main_call7_v7_apply, val_main_call7_cst_1_apply]
  show Ideal.ofBits .f32 0x00000000#32 + _ = _
  rw [Ideal.ofBits_zero_f32, zero_add]
  refine Finset.sum_congr rfl fun k _ => ?_
  have e : idx_main_call7_v7 (ix1 r) k = ix2 r k := ix2_ext _ _ _ rfl rfl
  rw [e, val_main_call7_v6_apply, shifted_apply, Ideal.hostUnary_exp_def]

/-- Row `r` of the log-softmax, at column `t`. -/
theorem logSoftmax_apply (x : (⟨S2048x8x128, .f32⟩ : BufTy).Contents (Elt Ideal)) (r : Fin 16384) (t : Fin 2048) :
    val_main_v48 (F := Ideal) x (ix2 r t)
      = Cert.RowLogProb.logpR (fun k => val_main_v44 (F := Ideal) x (ix2 r k)) t := by
  have e : idx_main_call7_v8 (idx_main_call7_v10 (ix2 r t)) = ix1 r := ix1_ext _ _ rfl
  rw [val_main_v48_apply, val_main_call7_v10_apply, val_main_call7_v9_apply, val_main_call7_v8_apply, e, expSum_apply,
    shifted_apply, Ideal.subf_def, Ideal.hostUnary_log_def]
  unfold Cert.RowLogProb.logpR Cert.RowLogProb.rowLse
  rfl

/-! ## The mean -/

/-- A sum over the indices of a vector is the sum over its positions. -/
theorem sum_rows (f : S16384.Idx → EReal) : ∑ j : S16384.Idx, f j = ∑ r : Fin 16384, f (ix1 r) := by
  refine Fintype.sum_equiv ⟨fun j => (j 0 : Fin 16384), fun r => ix1 r, fun j => (eq_ix1 j).symm, fun r => rfl⟩ _ _
    (fun j => ?_)
  exact congrArg f (eq_ix1 j)

/-- THE REFERENCE'S RESULT FROM ITS LOGITS: minus the mean over the rows of each row's log probability of its own
    speaker, the own column's logit shifted by the row's maximum first. -/
theorem result_of_logits (x : (⟨S2048x8x128, .f32⟩ : BufTy).Contents (Elt Ideal)) :
    ReadP.val_main_v66 (F := Ideal) x
      = fun _ => Cert.RowLogProb.negMean (fun r =>
          Cert.RowLogProb.logpR (fun t => ReadP.val_main_v44 (F := Ideal) x (ix2 r t)) (Cert.RowLogProb.sOf r)) := by
  funext i
  rw [val_main_v66_apply, val_main_v65_apply, val_main_v64_apply, val_main_cst_17_apply, val_main_cst_18_apply, sum_rows]
  have e : (fun r : Fin 16384 => val_main_v63 (F := Ideal) x (ix1 r))
      = fun r => Cert.RowLogProb.logpR (fun t => val_main_v44 (F := Ideal) x (ix2 r t)) (Cert.RowLogProb.sOf r) :=
    funext fun r => by rw [pick_apply, logSoftmax_apply]
  unfold Cert.RowLogProb.negMean
  rw [← e]
  rfl

end Cert.ReferenceIdeal.RefSoftmax

end
-- ==== Proof.RefLoss.lean ====
/-
  The reference's result: minus the mean over the 16384 rows of each row's log probability of its own speaker, the row's
  logits being the adjusted logits of the three preprocessed arrays (the scatter puts the diagonal logit in the row's own
  column, the clip floors every entry), and the log probability taken in the arrangement (a_s − M) − L.
-/
import proofs.«126931_j90366111907979_1_alg».proof.Proof.RefLogits
import proofs.«126931_j90366111907979_1_alg».proof.Proof.RefSoftmax

noncomputable section

namespace Cert.ReferenceIdeal.RefLoss

open Cert.ReferenceIdeal Cert.ReferenceIdeal.Gen Cert.ReferenceIdeal.ReadP Idealize.ShloMosaic Idealize.ShloMosaic.ValueIdx

/-- The reference's last stage is the loss of the unit vectors, the unit centroids and the scaled exclusive similarities,
    each row's own logit shifted first. -/
theorem result_eq (x : (⟨S2048x8x128, .f32⟩ : BufTy).Contents (Elt Ideal)) :
    ReadP.val_main_v66 (F := Ideal) x
      = fun _ => Cert.RowLogProb.lossR (ReadP.val_main_v3 (F := Ideal) x) (ReadP.val_main_v22 (F := Ideal) x)
          (ReadP.val_main_v28 (F := Ideal) x) := by
  rw [Cert.ReferenceIdeal.RefSoftmax.result_of_logits]
  funext _
  unfold Cert.RowLogProb.lossR
  refine congrArg Cert.RowLogProb.negMean (funext fun r => ?_)
  refine congrArg (fun a => Cert.RowLogProb.logpR a (Cert.RowLogProb.sOf r)) (funext fun t => ?_)
  exact Cert.ReferenceIdeal.RefLogits.logits_apply x r t

end Cert.ReferenceIdeal.RefLoss

end
-- ==== Proof.LibRank3Layout.lean ====
import Idealize.ShloMosaic.Lib.Pipeline.Value
import Idealize.ShloMosaic.Lib.ValueIdx

/-!
# Layout operations of a kept-dimension reduction and of a flattened matrix product, read at coordinates

Four re-layouts, each read at an index written by its coordinates:
* an `[a, b]` array cast to `[a, b, 1]` (a trailing unit axis added) reads, at `(i, j, u)`, the operand at `(i, j)`;
* an `[a, b, 1]` array broadcast to `[a, b, c]` reads, at `(i, j, k)`, the operand at `(i, j, 0)`;
* an `[a, b, c]` array cast to `[n, c]` with the two leading axes flattened reads, at `(p, k)` with
  `p = i · b + j`, the operand at `(i, j, k)`;
* an `[n, c]` array cast back to `[a, b, c]` reads, at `(i, j, k)`, the operand at `(i · b + j, k)`.
Each is the row-major position computed on both sides.
-/

namespace Idealize.ShloMosaic.ValueLayout3

open Idealize.ShloMosaic Idealize.ShloMosaic.ValueIdx

variable {α : Type}

/-- `[a, b]` cast to `[a, b, 1]`, read at `(i, j, u)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- `[a, b, 1]` broadcast to `[a, b, c]`, read at `(i, j, k)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- `[a, b, c]` cast to `[n, c]` (the two leading axes flattened), read at `(p, k)` with `p = i · b + j`. -/
theorem shapeCast_abc_nc_apply {a b c n : ℕ} (x : (⟨3, ![a, b, c]⟩ : Shape).Idx → α)
    (h : (⟨3, ![a, b, c]⟩ : Shape).ShapeCasts ⟨2, ![n, c]⟩) (p : Fin n) (i : Fin a) (j : Fin b) (k : Fin c)
    (hp : p.val = i.val * b + j.val) :
    shapeCast ⟨2, ![n, c]⟩ x h (ix2 p k) = x (ix3 i j k) :=
  shapeCast_apply x h _ _ (by
    rw [Shape.rowMajor_val_three, Shape.rowMajor_val_two]
    show (i.val * b + j.val) * c + k.val = p.val * c + k.val
    rw [hp])

/-- `[n, c]` cast to `[a, b, c]`, read at `(i, j, k)`: the operand at `(p, k)` with `p = i · b + j`. -/
theorem shapeCast_nc_abc_apply {a b c n : ℕ} (x : (⟨2, ![n, c]⟩ : Shape).Idx → α)
    (h : (⟨2, ![n, c]⟩ : Shape).ShapeCasts ⟨3, ![a, b, c]⟩) (p : Fin n) (i : Fin a) (j : Fin b) (k : Fin c)
    (hp : p.val = i.val * b + j.val) :
    shapeCast ⟨3, ![a, b, c]⟩ x h (ix3 i j k) = x (ix2 p k) :=
  shapeCast_apply x h _ _ (by
    rw [Shape.rowMajor_val_three, Shape.rowMajor_val_two]
    show p.val * c + k.val = (i.val * b + j.val) * c + k.val
    rw [hp])

end Idealize.ShloMosaic.ValueLayout3
-- ==== Proof.LibFlatten.lean ====
/-
  Two more layouts read at coordinates, for arrays of any extents.

  * An `[a, b]` array flattened to an `[n, 1]` column (n = a · b) reads, at `(p, 0)` with `p = i · b + j`, the array at
    `(i, j)`: both indices have row-major position `i · b + j`.
  * The maximum of an `[a, b, c]` array of extended reals along its last axis, started from the accumulator's value,
    is at `(i, j)` the fold of `max` over the `c` entries `(i, j, k)`.
-/
import Idealize.ShloMosaic.Lib.Pipeline.Value
import Idealize.ShloMosaic.Lib.ValueIdx
import Idealize.ShloMosaic.PureOps.Ideal.Laws

namespace Cert.LibFlatten

open Idealize.ShloMosaic Idealize.ShloMosaic.ValueIdx

variable {α : Type}

/-- `[a, b]` cast to `[n, 1]`, read at `(p, u)` with `p = i · b + j`. -/
theorem shapeCast_ab_n1_apply {a b n : ℕ} (x : (⟨2, ![a, b]⟩ : Shape).Idx → α)
    (h : (⟨2, ![a, b]⟩ : Shape).ShapeCasts ⟨2, ![n, 1]⟩) (p : Fin n) (u : Fin 1) (i : Fin a) (j : Fin b)
    (hp : p.val = i.val * b + j.val) :
    shapeCast ⟨2, ![n, 1]⟩ x h (ix2 p u) = x (ix2 i j) :=
  shapeCast_apply x h _ _ (by
    have hu : u.val = 0 := by omega
    rw [Shape.rowMajor_val_two, Shape.rowMajor_val_two]
    show i.val * b + j.val = p.val * 1 + u.val
    omega)

/-- The maximum along the last axis of an `[a, b, c]` array, from the accumulator's value, read at `(i, j)`. -/
theorem maxLast_apply {a b c : ℕ} (src : FVec Ideal (⟨3, ![a, b, c]⟩ : Shape) .f32)
    (h : (⟨3, ![a, b, c]⟩ : Shape).Reduces [(2 : Fin 3)] ⟨2, ![a, b]⟩) (hφ : FKind.Formats .f32)
    (hacc : (0xFF800000#32 : BitVec 32) = FKind.maximumf.neutral .f32 hφ) (i : Fin a) (j : Fin b) :
    multiReduction .maximumf [(2 : Fin 3)] ⟨2, ![a, b]⟩ src 0xFF800000#32 h hφ hacc (ix2 i j)
      = (Finset.univ : Finset (Fin c)).fold max (FloatOps.ofBits (F := Ideal) .f32 0xFF800000#32) fun k => src (ix3 i j k) :=
  (Ideal.multiReduction_maximumf_single src 0xFF800000#32 h hφ hacc (ix2 i j)).trans
    (congrArg (fun f => Finset.fold max (FloatOps.ofBits (F := Ideal) .f32 0xFF800000#32) f (Finset.univ : Finset (Fin c)))
      (funext fun k => congrArg src (funext fun ax => Fin.ext (by
        match ax with
        | ⟨0, _⟩ => rfl
        | ⟨1, _⟩ => rfl
        | ⟨2, _⟩ => rfl))))

end Cert.LibFlatten
-- ==== Proof.HostPrefix.lean ====
/-
  The kernel's host operations before the region compute the same three arrays as the reference's first operations:
  the unit vectors x / max(‖x‖, ε), the unit centroids, and thirty times the similarity of each unit vector with its
  speaker's normalised exclusive centroid. Operation for operation the two texts agree, except that the reference's
  clip takes the maximum with its arguments in the other order (the maximum is commutative) and converts the clip's
  bound from single precision to single precision (the identity). The kernel then lays the unit vectors out as
  16384 rows (row 8 s + g is utterance g of speaker s), and the similarities, clipped below at the floor, as a
  column of 16384 entries.
-/
import proofs.«126931_j90366111907979_1_alg».proof.Proof.FrameKernelIdeal
import proofs.«126931_j90366111907979_1_alg».proof.Proof.RefRead
import proofs.«126931_j90366111907979_1_alg».proof.Proof.RowLogProb
import proofs.«126931_j90366111907979_1_alg».proof.Proof.LibRank3Layout
import proofs.«126931_j90366111907979_1_alg».proof.Proof.LibFlatten
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.HostPrefix

open Cert.KernelIdeal Cert.KernelIdeal.Gen Cert.KernelIdeal.GenP Idealize.ShloMosaic Idealize.ShloMosaic.TcCoe Idealize.SL.Sem
open Idealize.ShloMosaic.StableHlo Idealize.ShloMosaic.ValueIdx Cert.RowLogProb

/-- The elementwise maximum of two arrays of extended reals does not depend on the order of its arguments. -/
theorem maximumf_comm {S : Shape} (a b : FVec Ideal S .f32) : maximumf a b = maximumf b a := by
  funext i
  show FloatOps.maximumf (a i) (b i) = FloatOps.maximumf (b i) (a i)
  simp only [Ideal.maximumf_def]
  exact max_comm _ _

/-- The reference's clip of the rows' norms, its arguments in the kernel's order. -/
theorem clip_norm (x : Cert.ReferenceIdeal.S2048x8x128.Idx → EReal) :
    Cert.ReferenceIdeal.ReadP.val_main_v1 (F := Ideal) x
      = maximumf (F := Ideal) (s := Cert.ReferenceIdeal.S2048x8x1) (φ := .f32) (Cert.ReferenceIdeal.ReadP.val_main_v0 (F := Ideal) x) (Cert.ReferenceIdeal.ReadP.val_main_call1_v1 (F := Ideal)) := by
  unfold Cert.ReferenceIdeal.ReadP.val_main_v1; exact maximumf_comm _ _

/-- The reference's clip of the exclusive centroids' norms, its arguments in the kernel's order. -/
theorem clip_exc (x : Cert.ReferenceIdeal.S2048x8x128.Idx → EReal) :
    Cert.ReferenceIdeal.ReadP.val_main_v14 (F := Ideal) x
      = maximumf (F := Ideal) (s := Cert.ReferenceIdeal.S2048x8x1) (φ := .f32) (Cert.ReferenceIdeal.ReadP.val_main_v13 (F := Ideal) x) (Cert.ReferenceIdeal.ReadP.val_main_call3_v1 (F := Ideal)) := by
  unfold Cert.ReferenceIdeal.ReadP.val_main_v14; exact maximumf_comm _ _

/-- The reference's clip of the centroids' norms, its arguments in the kernel's order. -/
theorem clip_cent (x : Cert.ReferenceIdeal.S2048x8x128.Idx → EReal) :
    Cert.ReferenceIdeal.ReadP.val_main_v20 (F := Ideal) x
      = maximumf (F := Ideal) (s := Cert.ReferenceIdeal.S2048x1) (φ := .f32) (Cert.ReferenceIdeal.ReadP.val_main_v19 (F := Ideal) x) (Cert.ReferenceIdeal.ReadP.val_main_call5_v1 (F := Ideal)) := by
  unfold Cert.ReferenceIdeal.ReadP.val_main_v20; exact maximumf_comm _ _

variable (m : (ℓ : Loc nD τ sig) → Buf (Elt Ideal) ℓ)

set_option maxHeartbeats 4000000 in
/-- The unit centroids the region finds are the reference's. -/
theorem V_centroids (c : Dev nD) :
    (GenP.V (F := Ideal) m c main_v25 : S2048x128.Idx → EReal)
      = Cert.ReferenceIdeal.ReadP.val_main_v22 (F := Ideal) (m ((c : Thread nD τ).loc main_arg0)) := by
  dsimp only [GenP.V, GenP.V0]
  simp only [hostOps0, hostOps0_1, hostOps0_2, hostOps0_3, hostOps0_4, hostOps0_5, List.flatten_cons, List.flatten_nil,
    List.append_nil, List.cons_append, List.nil_append]
  after_results_simp
  simp only [cast_eq]
  simp only [clip_norm, clip_exc, clip_cent, id_eq, Cert.ReferenceIdeal.ReadP.val_main_call0_v0, Cert.ReferenceIdeal.ReadP.val_main_call0_cst, Cert.ReferenceIdeal.ReadP.val_main_call0_v1, Cert.ReferenceIdeal.ReadP.val_main_call0_v2, Cert.ReferenceIdeal.ReadP.val_main_v0, Cert.ReferenceIdeal.ReadP.val_main_cst, Cert.ReferenceIdeal.ReadP.val_main_call1_v0, Cert.ReferenceIdeal.ReadP.val_main_call1_v1, Cert.ReferenceIdeal.ReadP.val_main_v2, Cert.ReferenceIdeal.ReadP.val_main_v3, Cert.ReferenceIdeal.ReadP.val_main_cst_0, Cert.ReferenceIdeal.ReadP.val_main_v4, Cert.ReferenceIdeal.ReadP.val_main_cst_1, Cert.ReferenceIdeal.ReadP.val_main_v5, Cert.ReferenceIdeal.ReadP.val_main_v6, Cert.ReferenceIdeal.ReadP.val_main_cst_2, Cert.ReferenceIdeal.ReadP.val_main_v7, Cert.ReferenceIdeal.ReadP.val_main_v8, Cert.ReferenceIdeal.ReadP.val_main_v9, Cert.ReferenceIdeal.ReadP.val_main_v10, Cert.ReferenceIdeal.ReadP.val_main_cst_3, Cert.ReferenceIdeal.ReadP.val_main_v11, Cert.ReferenceIdeal.ReadP.val_main_v12, Cert.ReferenceIdeal.ReadP.val_main_call2_v0, Cert.ReferenceIdeal.ReadP.val_main_call2_cst, Cert.ReferenceIdeal.ReadP.val_main_call2_v1, Cert.ReferenceIdeal.ReadP.val_main_call2_v2, Cert.ReferenceIdeal.ReadP.val_main_v13, Cert.ReferenceIdeal.ReadP.val_main_cst_4, Cert.ReferenceIdeal.ReadP.val_main_call3_v0, Cert.ReferenceIdeal.ReadP.val_main_call3_v1, Cert.ReferenceIdeal.ReadP.val_main_v15, Cert.ReferenceIdeal.ReadP.val_main_v16, Cert.ReferenceIdeal.ReadP.val_main_v17, Cert.ReferenceIdeal.ReadP.val_main_cst_5, Cert.ReferenceIdeal.ReadP.val_main_v18, Cert.ReferenceIdeal.ReadP.val_main_call4_v0, Cert.ReferenceIdeal.ReadP.val_main_call4_cst, Cert.ReferenceIdeal.ReadP.val_main_call4_v1, Cert.ReferenceIdeal.ReadP.val_main_call4_v2, Cert.ReferenceIdeal.ReadP.val_main_v19, Cert.ReferenceIdeal.ReadP.val_main_cst_6, Cert.ReferenceIdeal.ReadP.val_main_call5_v0, Cert.ReferenceIdeal.ReadP.val_main_call5_v1, Cert.ReferenceIdeal.ReadP.val_main_v21, Cert.ReferenceIdeal.ReadP.val_main_v22]

set_option maxHeartbeats 4000000 in
/-- The rows the region finds are the reference's unit vectors, speaker and utterance flattened into one axis. -/
theorem V_rows (c : Dev nD) :
    (GenP.V (F := Ideal) m c main_v31 : S16384x128.Idx → EReal)
      = shapeCast S16384x128 (Cert.ReferenceIdeal.ReadP.val_main_v3 (F := Ideal) (m ((c : Thread nD τ).loc main_arg0))) shapeCasts_S2048x8x128_S16384x128 := by
  dsimp only [GenP.V, GenP.V0]
  simp only [hostOps0, hostOps0_1, hostOps0_2, hostOps0_3, hostOps0_4, hostOps0_5, List.flatten_cons, List.flatten_nil,
    List.append_nil, List.cons_append, List.nil_append]
  after_results_simp
  simp only [cast_eq]
  simp only [clip_norm, id_eq, Cert.ReferenceIdeal.ReadP.val_main_call0_v0, Cert.ReferenceIdeal.ReadP.val_main_call0_cst, Cert.ReferenceIdeal.ReadP.val_main_call0_v1, Cert.ReferenceIdeal.ReadP.val_main_call0_v2, Cert.ReferenceIdeal.ReadP.val_main_v0, Cert.ReferenceIdeal.ReadP.val_main_cst, Cert.ReferenceIdeal.ReadP.val_main_call1_v0, Cert.ReferenceIdeal.ReadP.val_main_call1_v1, Cert.ReferenceIdeal.ReadP.val_main_v2, Cert.ReferenceIdeal.ReadP.val_main_v3]
  rfl

set_option maxHeartbeats 4000000 in
/-- The diagonal logits the region finds are the reference's scaled exclusive similarities, clipped below at the floor
    and laid out as one column. -/
theorem V_diag (c : Dev nD) :
    (GenP.V (F := Ideal) m c main_v30 : S16384x1.Idx → EReal)
      = shapeCast S16384x1
          (maximumf (F := Ideal) (s := S2048x8) (φ := .f32) (Cert.ReferenceIdeal.ReadP.val_main_v28 (F := Ideal) (m ((c : Thread nD τ).loc main_arg0)))
            (broadcastInDim S2048x8 ![] bcast_S_S2048x8 (constant (F := Ideal) S_ .f32 0x358637BD#32)))
          shapeCasts_S2048x8_S16384x1 := by
  dsimp only [GenP.V, GenP.V0]
  simp only [hostOps0, hostOps0_1, hostOps0_2, hostOps0_3, hostOps0_4, hostOps0_5, List.flatten_cons, List.flatten_nil,
    List.append_nil, List.cons_append, List.nil_append]
  after_results_simp
  simp only [cast_eq]
  simp only [clip_norm, clip_exc, clip_cent, id_eq, Cert.ReferenceIdeal.ReadP.val_main_call0_v0, Cert.ReferenceIdeal.ReadP.val_main_call0_cst, Cert.ReferenceIdeal.ReadP.val_main_call0_v1, Cert.ReferenceIdeal.ReadP.val_main_call0_v2, Cert.ReferenceIdeal.ReadP.val_main_v0, Cert.ReferenceIdeal.ReadP.val_main_cst, Cert.ReferenceIdeal.ReadP.val_main_call1_v0, Cert.ReferenceIdeal.ReadP.val_main_call1_v1, Cert.ReferenceIdeal.ReadP.val_main_v2, Cert.ReferenceIdeal.ReadP.val_main_v3, Cert.ReferenceIdeal.ReadP.val_main_cst_0, Cert.ReferenceIdeal.ReadP.val_main_v4, Cert.ReferenceIdeal.ReadP.val_main_cst_1, Cert.ReferenceIdeal.ReadP.val_main_v5, Cert.ReferenceIdeal.ReadP.val_main_v6, Cert.ReferenceIdeal.ReadP.val_main_cst_2, Cert.ReferenceIdeal.ReadP.val_main_v7, Cert.ReferenceIdeal.ReadP.val_main_v8, Cert.ReferenceIdeal.ReadP.val_main_v9, Cert.ReferenceIdeal.ReadP.val_main_v10, Cert.ReferenceIdeal.ReadP.val_main_cst_3, Cert.ReferenceIdeal.ReadP.val_main_v11, Cert.ReferenceIdeal.ReadP.val_main_v12, Cert.ReferenceIdeal.ReadP.val_main_call2_v0, Cert.ReferenceIdeal.ReadP.val_main_call2_cst, Cert.ReferenceIdeal.ReadP.val_main_call2_v1, Cert.ReferenceIdeal.ReadP.val_main_call2_v2, Cert.ReferenceIdeal.ReadP.val_main_v13, Cert.ReferenceIdeal.ReadP.val_main_cst_4, Cert.ReferenceIdeal.ReadP.val_main_call3_v0, Cert.ReferenceIdeal.ReadP.val_main_call3_v1, Cert.ReferenceIdeal.ReadP.val_main_v15, Cert.ReferenceIdeal.ReadP.val_main_v16, Cert.ReferenceIdeal.ReadP.val_main_v17, Cert.ReferenceIdeal.ReadP.val_main_cst_5, Cert.ReferenceIdeal.ReadP.val_main_v18, Cert.ReferenceIdeal.ReadP.val_main_call4_v0, Cert.ReferenceIdeal.ReadP.val_main_call4_cst, Cert.ReferenceIdeal.ReadP.val_main_call4_v1, Cert.ReferenceIdeal.ReadP.val_main_call4_v2, Cert.ReferenceIdeal.ReadP.val_main_v19, Cert.ReferenceIdeal.ReadP.val_main_cst_6, Cert.ReferenceIdeal.ReadP.val_main_call5_v0, Cert.ReferenceIdeal.ReadP.val_main_call5_v1, Cert.ReferenceIdeal.ReadP.val_main_v21, Cert.ReferenceIdeal.ReadP.val_main_v22, Cert.ReferenceIdeal.ReadP.val_main_v23, Cert.ReferenceIdeal.ReadP.val_main_cst_7, Cert.ReferenceIdeal.ReadP.val_main_v24, Cert.ReferenceIdeal.ReadP.val_main_v25, Cert.ReferenceIdeal.ReadP.val_main_v26, Cert.ReferenceIdeal.ReadP.val_main_cst_8, Cert.ReferenceIdeal.ReadP.val_main_v27, Cert.ReferenceIdeal.ReadP.val_main_v28]
  rfl

/-- Row `n = 8 s + g` of the flattened unit vectors is utterance `g` of speaker `s`. -/
theorem V_rows_apply (c : Dev nD) (n : Fin 16384) (d : Fin 128) :
    (GenP.V (F := Ideal) m c main_v31 : S16384x128.Idx → EReal) (ix2 n d)
      = Cert.ReferenceIdeal.ReadP.val_main_v3 (F := Ideal) (m ((c : Thread nD τ).loc main_arg0)) (ix3 (sOf n) (gOf n) d) :=
  (congrFun (V_rows m c) (ix2 n d)).trans
    (Idealize.ShloMosaic.ValueLayout3.shapeCast_abc_nc_apply _ shapeCasts_S2048x8x128_S16384x128 n (sOf n) (gOf n) d
      (by show n.val = n.val / 8 * 8 + n.val % 8; omega))

/-- Entry `n = 8 s + g` of the diagonal column is the scaled exclusive similarity of utterance `g` of speaker `s`,
    clipped below at the floor. -/
theorem V_diag_apply (c : Dev nD) (n : Fin 16384) :
    (GenP.V (F := Ideal) m c main_v30 : S16384x1.Idx → EReal) (ix2 n 0)
      = max (Cert.ReferenceIdeal.ReadP.val_main_v28 (F := Ideal) (m ((c : Thread nD τ).loc main_arg0)) (ix2 (sOf n) (gOf n))) floor6 := by
  refine (congrFun (V_diag m c) (ix2 n 0)).trans ?_
  refine (Cert.LibFlatten.shapeCast_ab_n1_apply _ shapeCasts_S2048x8_S16384x1 n 0 (sOf n) (gOf n)
      (by show n.val = n.val / 8 * 8 + n.val % 8; omega)).trans ?_
  show FloatOps.maximumf (Cert.ReferenceIdeal.ReadP.val_main_v28 (F := Ideal) (m ((c : Thread nD τ).loc main_arg0)) (ix2 (sOf n) (gOf n)))
      (broadcastInDim S2048x8 ![] bcast_S_S2048x8 (constant (F := Ideal) S_ .f32 0x358637BD#32) (ix2 (sOf n) (gOf n))) = _
  rw [Ideal.maximumf_def, broadcastInDim_apply _ bcast_S_S2048x8 _ _ (fun a => a.elim0) (fun a => a.elim0)]
  rfl

end Cert.KernelIdeal.HostPrefix

end
-- ==== Proof.LibKeepdims.lean ====
/-
  A reduced axis kept as a unit column, and the column spread back over the rows.

  A reduction over the last axis of an `[a, b]` array with the reduced axis kept (`keepdims`) is carried as an `[a]`
  vector viewed as an `[a, 1]` column and then broadcast to `[a, b]`. Read at explicit coordinates: the column at
  `(i, 0)` is the vector at `i`, and the broadcast at `(i, j)` is the column at `(i, 0)`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector cast to an `[a, 1]` column reads, at `(i, u)`, the vector at `i`: the two indices have the same
    row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(i, j)`, the column at `(i, 0)`: the unit axis is read at `0`,
    the other at the same coordinate (when `a = 1` that coordinate is `0` too). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LibColumns.lean ====
/-
  Columns of a two-axis array.

  Three readings at explicit coordinates `(p, k)` (row `p`, column `k`), for arrays of any height `a`:
  a single column cut out of an `[a, b]` array and flattened to an `[a]` vector is the array's column; nine `[a, 1]`
  columns laid side by side form an `[a, 9]` array whose column `j` is the `j`-th of them; and the sum of an `[a, b]` array
  along its rows is, at row `p`, the sum over the `b` columns of the entries of that row.
-/
import Idealize.ShloMosaic.Lib.Pipeline.Value
import Idealize.ShloMosaic.Lib.ValueIdx
import Idealize.ShloMosaic.Lib.ValueLayout
import Idealize.ShloMosaic.PureOps.Ideal.Laws

namespace Cert.LibColumns

open Idealize.ShloMosaic Idealize.ShloMosaic.ValueIdx

variable {α : Type}

/-- Column `k` of an `[a, b]` array, cut out as an `[a, 1]` slice at column offset `o = k` and flattened to an `[a]`
    vector, reads at row `p` the array's entry `(p, k)`. -/
theorem col_apply {a b : ℕ} (o : ℕ) (v : (⟨2, ![a, b]⟩ : Shape).Idx → α)
    (hs : (⟨2, ![a, b]⟩ : Shape).Slices ![0, o] ⟨2, ![a, 1]⟩) (hc : (⟨2, ![a, 1]⟩ : Shape).ShapeCasts ⟨1, ![a]⟩)
    (p : Fin a) (k : Fin b) (hk : k.val = o) :
    shapeCast ⟨1, ![a]⟩ (extractStridedSlice ⟨2, ![a, 1]⟩ ![0, o] v hs) hc (ix1 p) = v (ix2 p k) :=
  (shapeCast_apply _ hc (ix1 p) (ix2 p (0 : Fin 1)) (by
    rw [Shape.rowMajor_val_two, Shape.rowMajor_val_one]
    show p.val * 1 + 0 = p.val
    omega)).trans (slice2_axis1_apply o v hs p (0 : Fin 1) k (by show k.val = o + 0; omega))

/-- One of nine things, chosen by a number below nine. -/
def pick9 {β : Type} (c0 c1 c2 c3 c4 c5 c6 c7 c8 : β) (j : Fin 9) : β :=
  match j with
  | ⟨0, _⟩ => c0
  | ⟨1, _⟩ => c1
  | ⟨2, _⟩ => c2
  | ⟨3, _⟩ => c3
  | ⟨4, _⟩ => c4
  | ⟨5, _⟩ => c5
  | ⟨6, _⟩ => c6
  | ⟨7, _⟩ => c7
  | ⟨8, _⟩ => c8
  | ⟨_ + 9, h⟩ => absurd h (Nat.not_lt.2 (Nat.le_add_left _ _))

/-- Choosing among nine functions and applying the chosen one is choosing among the nine values. -/
theorem pick9_app {β γ : Type} (c0 c1 c2 c3 c4 c5 c6 c7 c8 : β → γ) (j : Fin 9) (x : β) :
    pick9 c0 c1 c2 c3 c4 c5 c6 c7 c8 j x = pick9 (c0 x) (c1 x) (c2 x) (c3 x) (c4 x) (c5 x) (c6 x) (c7 x) (c8 x) j := by
  match j with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨n + 9, hn⟩ => exact absurd hn (Nat.not_lt.2 (Nat.le_add_left _ _))

/-- Two choices among nine agree when the nine things agree one by one. -/
theorem pick9_congr {β : Type} {a0 a1 a2 a3 a4 a5 a6 a7 a8 b0 b1 b2 b3 b4 b5 b6 b7 b8 : β}
    (h0 : a0 = b0) (h1 : a1 = b1) (h2 : a2 = b2) (h3 : a3 = b3) (h4 : a4 = b4) (h5 : a5 = b5) (h6 : a6 = b6)
    (h7 : a7 = b7) (h8 : a8 = b8) (j : Fin 9) :
    pick9 a0 a1 a2 a3 a4 a5 a6 a7 a8 j = pick9 b0 b1 b2 b3 b4 b5 b6 b7 b8 j := by
  rw [h0, h1, h2, h3, h4, h5, h6, h7, h8]

/-- Nine `[a, 1]` columns as the list of pieces a concatenation takes. -/
abbrev cols9 {a : ℕ} (c0 c1 c2 c3 c4 c5 c6 c7 c8 : (⟨2, ![a, 1]⟩ : Shape).Idx → α) : List ((s : Shape) × (s.Idx → α)) :=
  [⟨⟨2, ![a, 1]⟩, c0⟩, ⟨⟨2, ![a, 1]⟩, c1⟩, ⟨⟨2, ![a, 1]⟩, c2⟩, ⟨⟨2, ![a, 1]⟩, c3⟩, ⟨⟨2, ![a, 1]⟩, c4⟩,
    ⟨⟨2, ![a, 1]⟩, c5⟩, ⟨⟨2, ![a, 1]⟩, c6⟩, ⟨⟨2, ![a, 1]⟩, c7⟩, ⟨⟨2, ![a, 1]⟩, c8⟩]

/-- Nine `[a, 1]` columns joined along the column axis: the entry `(p, j)` of the `[a, 9]` result is the entry `(p, 0)`
    of the `j`-th column (the columns before it take up exactly `j` positions of the joined axis). -/
theorem concat9_apply {a : ℕ} (c0 c1 c2 c3 c4 c5 c6 c7 c8 : (⟨2, ![a, 1]⟩ : Shape).Idx → α)
    (h : Shape.Concatenates ((cols9 c0 c1 c2 c3 c4 c5 c6 c7 c8).map (·.1)) ⟨2, ![a, 9]⟩ 1)
    (p : Fin a) (j : Fin 9) :
    concatenate ⟨2, ![a, 9]⟩ 1 (cols9 c0 c1 c2 c3 c4 c5 c6 c7 c8) h (ix2 p j)
      = pick9 c0 c1 c2 c3 c4 c5 c6 c7 c8 j (ix2 p (0 : Fin 1)) := by
  have hi : ∀ (j : Fin 9) (b : Fin 2), b.cast (rfl : (2 : ℕ) = 2) ≠ (1 : Fin 2) →
      ((ix2 p (0 : Fin 1) : (⟨2, ![a, 1]⟩ : Shape).Idx) b).val
        = ((ix2 p j : (⟨2, ![a, 9]⟩ : Shape).Idx) (b.cast rfl)).val := by
    intro j b hb
    match b with
    | ⟨0, _⟩ => rfl
    | ⟨1, _⟩ => exact absurd rfl hb
  match j with
  | ⟨0, hj⟩ =>
    exact concatenate_apply_piece (t := ⟨2, ![a, 9]⟩) (1 : Fin 2) (cols9 c0 c1 c2 c3 c4 c5 c6 c7 c8) h (ix2 p (⟨0, hj⟩ : Fin 9)) 0
      (by show (0 : ℕ) < 9; decide) ⟨2, ![a, 1]⟩ c0 rfl rfl 0 rfl (ix2 p (0 : Fin 1)) (hi _) rfl
  | ⟨1, hj⟩ =>
    exact concatenate_apply_piece (t := ⟨2, ![a, 9]⟩) (1 : Fin 2) (cols9 c0 c1 c2 c3 c4 c5 c6 c7 c8) h (ix2 p (⟨1, hj⟩ : Fin 9)) 1
      (by show (1 : ℕ) < 9; decide) ⟨2, ![a, 1]⟩ c1 rfl rfl 1 rfl (ix2 p (0 : Fin 1)) (hi _) rfl
  | ⟨2, hj⟩ =>
    exact concatenate_apply_piece (t := ⟨2, ![a, 9]⟩) (1 : Fin 2) (cols9 c0 c1 c2 c3 c4 c5 c6 c7 c8) h (ix2 p (⟨2, hj⟩ : Fin 9)) 2
      (by show (2 : ℕ) < 9; decide) ⟨2, ![a, 1]⟩ c2 rfl rfl 2 rfl (ix2 p (0 : Fin 1)) (hi _) rfl
  | ⟨3, hj⟩ =>
    exact concatenate_apply_piece (t := ⟨2, ![a, 9]⟩) (1 : Fin 2) (cols9 c0 c1 c2 c3 c4 c5 c6 c7 c8) h (ix2 p (⟨3, hj⟩ : Fin 9)) 3
      (by show (3 : ℕ) < 9; decide) ⟨2, ![a, 1]⟩ c3 rfl rfl 3 rfl (ix2 p (0 : Fin 1)) (hi _) rfl
  | ⟨4, hj⟩ =>
    exact concatenate_apply_piece (t := ⟨2, ![a, 9]⟩) (1 : Fin 2) (cols9 c0 c1 c2 c3 c4 c5 c6 c7 c8) h (ix2 p (⟨4, hj⟩ : Fin 9)) 4
      (by show (4 : ℕ) < 9; decide) ⟨2, ![a, 1]⟩ c4 rfl rfl 4 rfl (ix2 p (0 : Fin 1)) (hi _) rfl
  | ⟨5, hj⟩ =>
    exact concatenate_apply_piece (t := ⟨2, ![a, 9]⟩) (1 : Fin 2) (cols9 c0 c1 c2 c3 c4 c5 c6 c7 c8) h (ix2 p (⟨5, hj⟩ : Fin 9)) 5
      (by show (5 : ℕ) < 9; decide) ⟨2, ![a, 1]⟩ c5 rfl rfl 5 rfl (ix2 p (0 : Fin 1)) (hi _) rfl
  | ⟨6, hj⟩ =>
    exact concatenate_apply_piece (t := ⟨2, ![a, 9]⟩) (1 : Fin 2) (cols9 c0 c1 c2 c3 c4 c5 c6 c7 c8) h (ix2 p (⟨6, hj⟩ : Fin 9)) 6
      (by show (6 : ℕ) < 9; decide) ⟨2, ![a, 1]⟩ c6 rfl rfl 6 rfl (ix2 p (0 : Fin 1)) (hi _) rfl
  | ⟨7, hj⟩ =>
    exact concatenate_apply_piece (t := ⟨2, ![a, 9]⟩) (1 : Fin 2) (cols9 c0 c1 c2 c3 c4 c5 c6 c7 c8) h (ix2 p (⟨7, hj⟩ : Fin 9)) 7
      (by show (7 : ℕ) < 9; decide) ⟨2, ![a, 1]⟩ c7 rfl rfl 7 rfl (ix2 p (0 : Fin 1)) (hi _) rfl
  | ⟨8, hj⟩ =>
    exact concatenate_apply_piece (t := ⟨2, ![a, 9]⟩) (1 : Fin 2) (cols9 c0 c1 c2 c3 c4 c5 c6 c7 c8) h (ix2 p (⟨8, hj⟩ : Fin 9)) 8
      (by show (8 : ℕ) < 9; decide) ⟨2, ![a, 1]⟩ c8 rfl rfl 8 rfl (ix2 p (0 : Fin 1)) (hi _) rfl
  | ⟨n + 9, hn⟩ => exact absurd hn (Nat.not_lt.2 (Nat.le_add_left _ _))

/-- The sum of an `[a, b]` array of extended reals along its rows (a lane reduction with the additive neutral element
    as accumulator), read at row `p`: the sum over the columns `k` of the entries `(p, k)`. -/
theorem rowSum_apply {a b : ℕ} (src : FVec Ideal (⟨2, ![a, b]⟩ : Shape) .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun ax => Fin.ext (by
      match ax with
      | ⟨0, _⟩ => rfl
      | ⟨1, _⟩ => rfl)))

end Cert.LibColumns
-- ==== Proof.BodyRow.lean ====
/-
  The kernel body's stored value, read at one row of its block.

  At grid point i the body holds rows 512 i … 512 i + 511 of the loss. For row p of the block (row n = 512 i + p of the
  whole array, utterance n mod 8 of speaker n / 8) it stores the row's log probability of its own speaker with the
  log-sum-exp assembled first:  d − (M + log Σ_t exp (a_t − M)),  where d is the row's diagonal logit, a_t its adjusted
  logits (d in the own speaker's column n / 8, elsewhere thirty times the inner product of the row's vector with
  centroid t, clipped below at the floor) and M their maximum.

  The steps: one store through the whole block leaves its payload; the scores are the contraction over the 128
  features times thirty; the own-column mask compares the column number with the row number's quotient by 8, computed on
  32-bit words that never leave the range 0 … 16383; the maximum and the sum along a row are the fold of max from −∞
  and the finite sum.
-/
import proofs.«126931_j90366111907979_1_alg».proof.Proof.FrameKernelIdeal
import proofs.«126931_j90366111907979_1_alg».proof.Proof.RowLogProb
import proofs.«126931_j90366111907979_1_alg».proof.Proof.LibKeepdims
import proofs.«126931_j90366111907979_1_alg».proof.Proof.LibColumns
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.BodyRow

open Cert.KernelIdeal Cert.KernelIdeal.Gen Cert.KernelIdeal.GenP Idealize.ShloMosaic Idealize.ShloMosaic.ValueIdx Cert.RowLogProb

/-! ## One store through the whole block -/

/-- The offsets of the whole-block rectangle are all zero. -/
theorem offsets_zero : (![0, 0] : Fin 2 → Nat) = fun _ => 0 := funext fun a => by fin_cases a <;> rfl

/-- The block the body leaves is its one store's payload, computed from the three loaded blocks as they are. -/
theorem out_eq_payload (i : grid0.Coords) (x0 : Vec Ideal S512x128 .f32) (x1 : Vec Ideal S2048x128 .f32)
    (x2 : Vec Ideal S512x1 .f32) :
    GenP.out0_3 (F := Ideal) i x0 x1 x2 = k0_pay1 (F := Ideal) (k0_pay2 x0 x1) (k0_pay3 i) (k0_pay4 x2) := by
  unfold GenP.out0_3
  rw [View.canon_unit_zero offsets_zero]
  simp only [View.ld_unit_zero (S := S512x128) offsets_zero, View.ld_unit_zero (S := S2048x128) offsets_zero,
    View.ld_unit_zero (S := S512x1) offsets_zero]

/-- The diagonal column passes through a cast to its own shape unchanged. -/
theorem diag_eq (x2 : Vec Ideal S512x1 .f32) : k0_pay4 (F := Ideal) x2 = x2 := by
  unfold k0_pay4
  exact shapeCast_self x2 _

/-! ## The row number and its quotient by 8, on 32-bit words -/

/-- A number below 2^31, as a 32-bit word, has its top bit clear. -/
theorem msb_small (n : Nat) (h : n < 2147483648) : (BitVec.ofNat 32 n).msb = false := by
  rw [BitVec.msb_eq_false_iff_two_mul_lt, BitVec.toNat_ofNat]; omega

/-- Such a number, as a word, reads back signed as itself. -/
theorem toInt_small (n : Nat) (h : n < 2147483648) : (BitVec.ofNat 32 n).toInt = (n : Int) := by
  rw [BitVec.toInt_eq_toNat_of_msb (msb_small n h), BitVec.toNat_ofNat]; omega

/-- The row number 512 a + p (a < 32, p < 512) computed on words does not wrap. -/
theorem row_word (a p : Nat) (ha : a < 32) (hp : p < 512) :
    IntOp.addi (Scalar.muli (BitVec.ofNat 32 a) 512#32) (BitVec.ofNat 32 p) = BitVec.ofNat 32 (512 * a + p) := by
  apply BitVec.eq_of_toNat_eq
  show ((BitVec.ofNat 32 a * 512#32) + BitVec.ofNat 32 p).toNat = _
  rw [BitVec.toNat_add, BitVec.toNat_mul, BitVec.toNat_ofNat, BitVec.toNat_ofNat, BitVec.toNat_ofNat, BitVec.toNat_ofNat]
  omega

/-- The signed quotient by 8 of a non-negative word is the number's quotient. -/
theorem divsi8_small (n : Nat) (h : n < 2147483648) :
    IntOp.divsi .vector (BitVec.ofNat 32 n) 8#32 = BitVec.ofNat 32 (n / 8) := by
  unfold IntOp.divsi
  rw [if_neg (by
    unfold IntOp.SDivCorner
    intro hc
    rcases hc with hc | ⟨-, hc⟩
    · exact absurd hc (by decide)
    · exact absurd hc (by decide))]
  rw [BitVec.sdiv_eq, msb_small n h, show (8#32 : BitVec 32).msb = false from by decide]
  apply BitVec.eq_of_toNat_eq
  show (BitVec.ofNat 32 n / 8#32).toNat = _
  rw [BitVec.toNat_udiv, BitVec.toNat_ofNat, BitVec.toNat_ofNat, BitVec.toNat_ofNat]
  simp only [Nat.reducePow, Nat.reduceMod]
  omega

/-- The signed remainder by 8 of a non-negative word is the number's remainder. -/
theorem remsi8_small (n : Nat) (h : n < 2147483648) :
    IntOp.remsi .vector (BitVec.ofNat 32 n) 8#32 = BitVec.ofNat 32 (n % 8) := by
  unfold IntOp.remsi
  rw [if_neg (by
    unfold IntOp.SDivCorner
    intro hc
    rcases hc with hc | ⟨-, hc⟩
    · exact absurd hc (by decide)
    · exact absurd hc (by decide))]
  rw [BitVec.srem_eq, msb_small n h, show (8#32 : BitVec 32).msb = false from by decide]
  apply BitVec.eq_of_toNat_eq
  show (BitVec.ofNat 32 n % 8#32).toNat = _
  rw [BitVec.toNat_umod, BitVec.toNat_ofNat, BitVec.toNat_ofNat, BitVec.toNat_ofNat]
  simp only [Nat.reducePow, Nat.reduceMod]
  omega

/-- A positive number below 2^31, as a word, is signed-greater than zero. -/
theorem cmpi_sgt_zero_pos (n : Nat) (h : n < 2147483648) (hn : 0 < n) :
    IntOp.cmpi .sgt (BitVec.ofNat 32 n) 0#32 = 1#1 := by
  have e : (0#32 : BitVec 32).slt (BitVec.ofNat 32 n) = true := by
    rw [BitVec.slt, toInt_small n h, decide_eq_true_iff]
    show (0 : Int) < (n : Int)
    omega
  show BitVec.ofBool ((0#32 : BitVec 32).slt (BitVec.ofNat 32 n)) = 1#1
  rw [e]; rfl

/-- A number below 2^31, as a word, is not signed-less than zero. -/
theorem cmpi_slt_zero_small (n : Nat) (h : n < 2147483648) : IntOp.cmpi .slt (BitVec.ofNat 32 n) 0#32 = 0#1 := by
  have e : (BitVec.ofNat 32 n).slt 0#32 = false := by
    rw [BitVec.slt, toInt_small n h, decide_eq_false_iff_not]
    show ¬ ((n : Int) < 0)
    omega
  show BitVec.ofBool ((BitVec.ofNat 32 n).slt 0#32) = 0#1
  rw [e]; rfl

/-- The floor-division correction never applies to a non-negative dividend: either its sign equals the divisor's
    (a positive dividend), or its remainder is zero (the dividend zero). -/
theorem no_correction (n : Nat) (h : n < 2147483648) :
    IntOp.andi
      (IntOp.cmpi .ne
        (IntOp.subi ((IntOp.cmpi .sgt (BitVec.ofNat 32 n) 0#32).setWidth 32)
          ((IntOp.cmpi .slt (BitVec.ofNat 32 n) 0#32).setWidth 32))
        (Scalar.subi (Scalar.extui (Scalar.cmpi .sgt 8#32 0#32)) (Scalar.extui (Scalar.cmpi .slt 8#32 0#32))))
      (IntOp.cmpi .ne (IntOp.remsi .vector (BitVec.ofNat 32 n) 8#32) 0#32) = 0#1 := by
  rcases Nat.eq_zero_or_pos n with rfl | hn
  · rw [remsi8_small 0 h]
    decide
  · rw [cmpi_sgt_zero_pos n h hn, cmpi_slt_zero_small n h]
    have e : IntOp.cmpi .ne (IntOp.subi ((1#1 : BitVec 1).setWidth 32) ((0#1 : BitVec 1).setWidth 32))
        (Scalar.subi (Scalar.extui (Scalar.cmpi .sgt 8#32 0#32)) (Scalar.extui (Scalar.cmpi .slt 8#32 0#32))) = 0#1 := by
      decide
    rw [e]
    show (0#1 : BitVec 1) &&& _ = 0#1
    exact BitVec.zero_and

/-- Two numbers below 2^32, as words, are equal exactly when they are. -/
theorem cmpi_eq_small (u v : Nat) (hu : u < 4294967296) (hv : v < 4294967296) :
    IntOp.cmpi .eq (BitVec.ofNat 32 u) (BitVec.ofNat 32 v) = if u = v then 1#1 else 0#1 := by
  show BitVec.ofBool (BitVec.ofNat 32 u == BitVec.ofNat 32 v) = _
  by_cases huv : u = v
  · rw [if_pos huv, huv]
    rw [show (BitVec.ofNat 32 v == BitVec.ofNat 32 v) = true from beq_self_eq_true _]; rfl
  · rw [if_neg huv]
    have hne : BitVec.ofNat 32 u ≠ BitVec.ofNat 32 v := by
      intro hc
      have := congrArg BitVec.toNat hc
      rw [BitVec.toNat_ofNat, BitVec.toNat_ofNat] at this
      omega
    rw [show (BitVec.ofNat 32 u == BitVec.ofNat 32 v) = false from beq_false_of_ne hne]; rfl

/-- The floor division by 8 as the body spells it on one word: the signed quotient, less one when the dividend's sign
    differs from the divisor's and the remainder is not zero. -/
def floorDiv8 (x : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt 8#32 0#32)) (Scalar.extui (Scalar.cmpi .slt 8#32 0#32))))
      (IntOp.cmpi .ne (IntOp.remsi .vector x 8#32) 0#32))
    (IntOp.subi (IntOp.divsi .vector x 8#32) 1#32) (IntOp.divsi .vector x 8#32)

/-- On a non-negative word it is the number's quotient by 8. -/
theorem floorDiv8_small (n : Nat) (h : n < 2147483648) : floorDiv8 (BitVec.ofNat 32 n) = BitVec.ofNat 32 (n / 8) := by
  unfold floorDiv8
  rw [no_correction n h, select_zero, divsi8_small n h]

/-! ## The own-column mask -/

/-- The mask at row p, column t: set exactly when t is the quotient by 8 of the row number 512 i + p. -/
theorem mask_apply (i : grid0.Coords) (p : Fin 512) (t : Fin 2048) :
    k0_pay3 i (ix2 p t) = if t.val = (512 * (i 0).val + p.val) / 8 then 1#1 else 0#1 := by
  have ha : (i 0).val < 32 := (i 0).isLt
  have hp : p.val < 512 := p.isLt
  have ht : t.val < 2048 := t.isLt
  unfold k0_pay3
  show IntOp.cmpi .eq (broadcastTo S512x2048 _ _ (ix2 p t)) (broadcastTo S512x2048 _ _ (ix2 p t)) = _
  rw [broadcastTo_1b_ab_apply, LibKeepdims.broadcastTo_a1_ab_apply, iota_single_apply]
  show IntOp.cmpi .eq (BitVec.ofNat 32 t.val)
    (floorDiv8 (IntOp.addi (Scalar.muli (BitVec.ofNat 32 (i 0).val) 512#32)
      (iota .tc S512x1 32 [0] iota_S512x1_d0_w32 (ix2 p (0 : Fin 1))))) = _
  rw [iota_single_apply]
  show IntOp.cmpi .eq (BitVec.ofNat 32 t.val)
    (floorDiv8 (IntOp.addi (Scalar.muli (BitVec.ofNat 32 (i 0).val) 512#32) (BitVec.ofNat 32 p.val))) = _
  rw [row_word _ _ ha hp, floorDiv8_small _ (by omega), cmpi_eq_small _ _ (by omega) (by omega)]

/-! ## The scores -/

theorem lhs_row (j : S512x2048.Idx) (q : dot_S512x128_S2048x128_S512x2048_1_1_0_0_n_n.contr.Idx) :
    (dot_S512x128_S2048x128_S512x2048_1_1_0_0_n_n.lhsIdx j q 0).val = (j 0).val := by
  unfold DotDims.lhsIdx
  rw [dif_neg (show ¬(0 : Fin S512x128.rank) ∈ dot_S512x128_S2048x128_S512x2048_1_1_0_0_n_n.lhsBatch by decide),
    dif_pos (show (0 : Fin S512x128.rank) ∈ dot_S512x128_S2048x128_S512x2048_1_1_0_0_n_n.lhsNonContracting by decide)]
  rfl
theorem lhs_feature (j : S512x2048.Idx) (q : dot_S512x128_S2048x128_S512x2048_1_1_0_0_n_n.contr.Idx) :
    (dot_S512x128_S2048x128_S512x2048_1_1_0_0_n_n.lhsIdx j q 1).val = (q ⟨0, by decide⟩).val :=
  dot_S512x128_S2048x128_S512x2048_1_1_0_0_n_n.lhsIdx_val_of_single rfl j q
theorem rhs_row (j : S512x2048.Idx) (q : dot_S512x128_S2048x128_S512x2048_1_1_0_0_n_n.contr.Idx) :
    (dot_S512x128_S2048x128_S512x2048_1_1_0_0_n_n.rhsIdx j q 0).val = (j 1).val := by
  unfold DotDims.rhsIdx
  rw [dif_neg (show ¬(0 : Fin S2048x128.rank) ∈ dot_S512x128_S2048x128_S512x2048_1_1_0_0_n_n.rhsBatch by decide),
    dif_pos (show (0 : Fin S2048x128.rank) ∈ dot_S512x128_S2048x128_S512x2048_1_1_0_0_n_n.rhsNonContracting by decide)]
  rfl
theorem rhs_feature (j : S512x2048.Idx) (q : dot_S512x128_S2048x128_S512x2048_1_1_0_0_n_n.contr.Idx) :
    (dot_S512x128_S2048x128_S512x2048_1_1_0_0_n_n.rhsIdx j q 1).val = (q ⟨0, by decide⟩).val :=
  dot_S512x128_S2048x128_S512x2048_1_1_0_0_n_n.rhsIdx_val_of_single rfl j q

/-- The score of row p against centroid t: the contraction over the 128 features (the change of format is the identity,
    the accumulator the zero word), times thirty. -/
theorem scores_apply (x0 : Vec Ideal S512x128 .f32) (x1 : Vec Ideal S2048x128 .f32) (p : Fin 512) (t : Fin 2048) :
    k0_pay2 (F := Ideal) x0 x1 (ix2 p t) = (∑ d : Fin 128, x0 (ix2 p d) * x1 (ix2 t d)) * scale := by
  unfold k0_pay2
  simp only [shapeCast_self]
  rw [mulf_apply, broadcast_apply]
  refine congrArg (· * scale) ?_
  simp only [matmul]
  rw [Ideal.matmul_constant_zero_apply,
    ← Equiv.sum_comp (contrEquiv1 dot_S512x128_S2048x128_S512x2048_1_1_0_0_n_n 128 rfl rfl).symm]
  refine Finset.sum_congr rfl fun k _ => ?_
  have hk := contrEquiv1_symm_val dot_S512x128_S2048x128_S512x2048_1_1_0_0_n_n 128 rfl rfl k
  have el : dot_S512x128_S2048x128_S512x2048_1_1_0_0_n_n.lhsIdx (ix2 p t)
      ((contrEquiv1 dot_S512x128_S2048x128_S512x2048_1_1_0_0_n_n 128 rfl rfl).symm k) = ix2 p k :=
    funext fun a => Fin.ext (by
      match a with
      | ⟨0, _⟩ => exact lhs_row _ _
      | ⟨1, _⟩ => exact (lhs_feature _ _).trans hk)
  have er : dot_S512x128_S2048x128_S512x2048_1_1_0_0_n_n.rhsIdx (ix2 p t)
      ((contrEquiv1 dot_S512x128_S2048x128_S512x2048_1_1_0_0_n_n 128 rfl rfl).symm k) = ix2 t k :=
    funext fun a => Fin.ext (by
      match a with
      | ⟨0, _⟩ => exact rhs_row _ _
      | ⟨1, _⟩ => exact (rhs_feature _ _).trans hk)
  rw [el, er]
  rfl

/-! ## The maximum, the sum and the log probability along a row -/

/-- The word of −∞ is the bottom of the extended reals. -/
theorem neg_inf_word : FloatOps.ofBits (F := Ideal) .f32 0xFF800000#32 = (⊥ : EReal) := by
  show Ideal.ofBits .f32 0xFF800000#32 = ⊥
  simp [Ideal.ofBits, Ideal.ieee]

/-- The maximum of an `[a, b]` array along its rows from −∞, read at row `p`: the fold of `max` from the bottom over the
    `b` entries of that row. -/
theorem rowMaxFold_apply {a b : ℕ} (src : FVec Ideal (⟨2, ![a, b]⟩ : Shape) .f32)
    (h : (⟨2, ![a, b]⟩ : Shape).Reduces [(1 : Fin 2)] ⟨1, ![a]⟩) (hφ : FKind.Formats .f32)
    (hacc : (0xFF800000#32 : BitVec 32) = FKind.maximumf.neutral .f32 hφ) (p : Fin a) :
    multiReduction .maximumf [(1 : Fin 2)] ⟨1, ![a]⟩ src 0xFF800000#32 h hφ hacc (ix1 p)
      = (Finset.univ : Finset (Fin b)).fold max ⊥ fun k => src (ix2 p k) :=
  (Ideal.multiReduction_maximumf_single src 0xFF800000#32 h hφ hacc (ix1 p)).trans (by
    rw [neg_inf_word]
    exact congrArg (fun f => Finset.fold max (⊥ : EReal) f (Finset.univ : Finset (Fin b)))
      (funext fun k => congrArg src (funext fun ax => Fin.ext (by
        match ax with
        | ⟨0, _⟩ => rfl
        | ⟨1, _⟩ => rfl))))

theorem exp_at {s : Shape} {φ : FTy} (a : FVec Ideal s φ) (i : s.Idx) : exp a i = Ideal.exp (a i) := rfl
theorem log_at {s : Shape} {φ : FTy} (a : FVec Ideal s φ) (i : s.Idx) : log a i = Ideal.log (a i) := rfl

/-- The stable log-sum-exp chain on a `[512, 2048]` array `A` of logits and a column `d` of diagonal logits, read at
    row `p`: the row's maximum `M` kept as a column and spread back over the row, the sum of the exponentials of the
    logits less `M`, its log added to `M`, all subtracted from `d`. -/
theorem lse_chain (A : FVec Ideal S512x2048 .f32) (d : FVec Ideal S512x1 .f32) (p : Fin 512)
    (hred : S512x2048.Reduces [1] S512) (hcast : S512.ShapeCasts S512x1) (hbc : S512x1.Broadcasts S512x2048) :
    subf d
      (addf (shapeCast S512x1 (multiReduction .maximumf [1] S512 A 0xFF800000#32 hred (.inl rfl) rfl) hcast)
        (log (shapeCast S512x1
          (multiReduction .add [1] S512
            (exp (subf A (broadcastTo S512x2048
              (shapeCast S512x1 (multiReduction .maximumf [1] S512 A 0xFF800000#32 hred (.inl rfl) rfl) hcast) hbc)))
            0x00000000#32 hred (.inl rfl) rfl) hcast)))
      (ix2 p (0 : Fin 1))
      = logpK (fun t => A (ix2 p t)) (d (ix2 p (0 : Fin 1))) := by
  have hM : multiReduction .maximumf [1] S512 A 0xFF800000#32 hred (.inl rfl) rfl (ix1 p)
      = rowMax (fun t => A (ix2 p t)) := rowMaxFold_apply A hred _ _ p
  have hcol : ∀ v : FVec Ideal S512 .f32, shapeCast S512x1 v hcast (ix2 p (0 : Fin 1)) = v (ix1 p) :=
    fun v => LibKeepdims.shapeCast_a_a1_apply v hcast p 0
  rw [subf_apply, addf_apply, log_at, hcol, hcol, hM]
  unfold logpK rowLse
  refine congrArg (fun s => d (ix2 p (0 : Fin 1)) - (rowMax (fun t => A (ix2 p t)) + Ideal.log s)) ?_
  refine (LibColumns.rowSum_apply _ hred _ _ p).trans (Finset.sum_congr rfl fun t _ => ?_)
  rw [exp_at, subf_apply, LibKeepdims.broadcastTo_a1_ab_apply, hcol, hM]

/-- The stored log probability at row p, over any scores `v8`, mask `v40` and diagonal column `v42`: the row's logits
    are the diagonal logit where the mask is set and the score clipped below at the floor elsewhere. -/
theorem logprob_apply (v8 : FVec Ideal S512x2048 .f32) (v40 : IVec S512x2048 1) (v42 : FVec Ideal S512x1 .f32)
    (p : Fin 512) :
    k0_pay1 (F := Ideal) v8 v40 v42 (ix2 p (0 : Fin 1))
      = logpK (fun t => Scalar.select (v40 (ix2 p t)) (v42 (ix2 p (0 : Fin 1))) (max (v8 (ix2 p t)) floor6))
          (v42 (ix2 p (0 : Fin 1))) := by
  unfold k0_pay1
  simp only [shapeCast_self]
  refine (lse_chain _ v42 p _ _ _).trans ?_
  refine congrArg (fun a => logpK a (v42 (ix2 p (0 : Fin 1)))) (funext fun t => ?_)
  rw [select_apply, LibKeepdims.broadcastTo_a1_ab_apply, maximumf_apply, broadcast_apply]
  rfl

/-! ## The stored value at a row -/

/-- Row p of the block at grid point i holds the log probability of row n = 512 i + p: its diagonal logit less the
    log-sum-exp of its adjusted logits. -/
theorem out_row (i : grid0.Coords) (x0 : Vec Ideal S512x128 .f32) (x1 : Vec Ideal S2048x128 .f32) (x2 : Vec Ideal S512x1 .f32)
    (p : Fin 512) (n : Fin 16384) (hn : n.val = 512 * (i 0).val + p.val) :
    GenP.out0_3 (F := Ideal) i x0 x1 x2 (ix2 p 0)
      = logpK (adj (fun d => x0 (ix2 p d)) (fun t d => x1 (ix2 t d)) (x2 (ix2 p 0)) (sOf n)) (x2 (ix2 p 0)) := by
  rw [out_eq_payload, diag_eq]
  refine (logprob_apply _ _ x2 p).trans ?_
  refine congrArg (fun a => logpK a (x2 (ix2 p (0 : Fin 1)))) (funext fun t => ?_)
  rw [mask_apply, scores_apply]
  unfold adj
  have hs : (t = sOf n) ↔ t.val = (512 * (i 0).val + p.val) / 8 := by
    rw [← hn]
    exact ⟨fun h => by rw [h]; rfl, fun h => Fin.ext h⟩
  by_cases ht : t = sOf n
  · rw [if_pos ht, if_pos (hs.mp ht), select_one]
  · rw [if_neg ht, if_neg (fun h => ht (hs.mpr h)), select_zero]

end Cert.KernelIdeal.BodyRow

end
-- ==== Proof.KernelLoss.lean ====
/-
  The kernel's result, read off its frame: from the blocks the 32 grid points write back, to the output array, to the
  host operations after the region.

  Point t of the grid holds rows 512 t … 512 t + 511. Its three input blocks are those rows of the array of 16384 unit
  vectors, the whole array of 2048 unit centroids, and those rows of the column of clipped diagonal logits; what it
  writes back is, row by row, the row's log probability of its own speaker with the log-sum-exp assembled first. The 32
  blocks tile the column of 16384 entries, so after the run the output array is that column of log probabilities. The
  host operations after the region then take the column's total sum from the zero word, divide by 16384 and negate:
  minus the mean of the rows' log probabilities, which is the loss.
-/
import proofs.«126931_j90366111907979_1_alg».proof.Proof.FrameKernelIdeal
import proofs.«126931_j90366111907979_1_alg».proof.Proof.HostPrefix
import proofs.«126931_j90366111907979_1_alg».proof.Proof.BodyRow
import proofs.«126931_j90366111907979_1_alg».proof.Proof.RowLogProb
import proofs.«126931_j90366111907979_1_alg».proof.Proof.RefRead
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.KernelLoss

open Cert.KernelIdeal Cert.KernelIdeal.Gen Cert.KernelIdeal.GenP Idealize.ShloMosaic Idealize.ShloMosaic.TcCoe Idealize.SL.Sem
open Idealize.ShloMosaic.ValueIdx Cert.RowLogProb
open Idealize.ShloMosaic.Pipeline (Dat)
open Idealize.ShloMosaic.StableHlo

variable (m : (ℓ : Loc nD τ sig) → Buf (Elt Ideal) ℓ)

/-! ## The grid and the printed index maps -/

/-- The grid is one axis of 32 points: point t's one coordinate is t. -/
theorem coords_val : ∀ t : Fin grid0.N, ((grid0.coords t) 0).val = t.val := by decide +kernel

/-- The printed index maps, decided over the grid: the rows' window, the diagonal's window and the output's window are at
    block (t, 0) at point t; the centroids' window is at block (0, 0) at every point. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-! ## The three input blocks at a point, as rows of their arrays -/

/-- Row p of the rows' block at point t is row 512 t + p of the array of 16384 rows. -/
theorem rows_block (c : Dev nD) (t : Fin cfg0.N) (p : Fin 512) (d : Fin 128) (n : Fin 16384)
    (hn : n.val = 512 * t.val + p.val) :
    (GenP.iblk m c 0 t : Vec Ideal S512x128 .f32) (ix2 p d)
      = (GenP.V (F := Ideal) m c main_v31 : S16384x128.Idx → EReal) (ix2 n d) := by
  obtain ⟨e0, e1, -⟩ := index_facts t
  show GenP.V m c main_v31 (((cfg0.win 0).blk t).view.emb (ix2 p d)) = _
  refine congrArg (GenP.V (F := Ideal) m c main_v31 : S16384x128.Idx → EReal) (funext fun a => Fin.ext ?_)
  match a with
  | ⟨0, _⟩ => show win0_0.index t (0 : Fin 2) * 512 + 1 * p.val = n.val; omega
  | ⟨1, _⟩ => show win0_0.index t (1 : Fin 2) * 128 + 1 * d.val = d.val; omega

/-- The centroids' block at every point is the whole array of centroids. -/
theorem centroids_block (c : Dev nD) (t : Fin cfg0.N) (s : Fin 2048) (d : Fin 128) :
    (GenP.iblk m c 1 t : Vec Ideal S2048x128 .f32) (ix2 s d)
      = (GenP.V (F := Ideal) m c main_v25 : S2048x128.Idx → EReal) (ix2 s d) := by
  obtain ⟨-, -, e0, e1, -⟩ := index_facts t
  show GenP.V m c main_v25 (((cfg0.win 1).blk t).view.emb (ix2 s d)) = _
  refine congrArg (GenP.V (F := Ideal) m c main_v25 : S2048x128.Idx → EReal) (funext fun a => Fin.ext ?_)
  match a with
  | ⟨0, _⟩ => show win0_1.index t (0 : Fin 2) * 2048 + 1 * s.val = s.val; omega
  | ⟨1, _⟩ => show win0_1.index t (1 : Fin 2) * 128 + 1 * d.val = d.val; omega

/-- Entry p of the diagonal's block at point t is entry 512 t + p of the column of 16384 diagonal logits. -/
theorem diag_block (c : Dev nD) (t : Fin cfg0.N) (p : Fin 512) (n : Fin 16384)
    (hn : n.val = 512 * t.val + p.val) :
    (GenP.iblk m c 2 t : Vec Ideal S512x1 .f32) (ix2 p 0)
      = (GenP.V (F := Ideal) m c main_v30 : S16384x1.Idx → EReal) (ix2 n 0) := by
  obtain ⟨-, -, -, -, e0, e1, -⟩ := index_facts t
  show GenP.V m c main_v30 (((cfg0.win 2).blk t).view.emb (ix2 p 0)) = _
  refine congrArg (GenP.V (F := Ideal) m c main_v30 : S16384x1.Idx → EReal) (funext fun a => Fin.ext ?_)
  match a with
  | ⟨0, _⟩ => show win0_2.index t (0 : Fin 2) * 512 + 1 * p.val = n.val; omega
  | ⟨1, _⟩ => show win0_2.index t (1 : Fin 2) * 1 + 1 * 0 = 0; omega

/-! ## The output array -/

/-- Row n's log probability of its own speaker, the log-sum-exp assembled first, from the three arrays the
    preprocessing produces. -/
def rowLp (X : (⟨3, ![2048, 8, 128]⟩ : Shape).Idx → EReal) (C : (⟨2, ![2048, 128]⟩ : Shape).Idx → EReal)
    (D : (⟨2, ![2048, 8]⟩ : Shape).Idx → EReal) (n : Fin 16384) : EReal :=
  logpK (rowAdj X C D n) (max (D (ix2 (sOf n) (gOf n))) floor6)

/-- The column of the 16384 rows' log probabilities. -/
def outArr (X : (⟨3, ![2048, 8, 128]⟩ : Shape).Idx → EReal) (C : (⟨2, ![2048, 128]⟩ : Shape).Idx → EReal)
    (D : (⟨2, ![2048, 8]⟩ : Shape).Idx → EReal) : S16384x1.Idx → EReal :=
  fun j => rowLp X C D ⟨(j 0).val, (j 0).isLt⟩

/-- What the body stores at row p of its block, when its three blocks hold row n's vector, the centroids and row n's
    clipped diagonal logit: row n's log probability. -/
theorem stored_row (X : (⟨3, ![2048, 8, 128]⟩ : Shape).Idx → EReal) (C : (⟨2, ![2048, 128]⟩ : Shape).Idx → EReal)
    (D : (⟨2, ![2048, 8]⟩ : Shape).Idx → EReal)
    (i : grid0.Coords) (x0 : Vec Ideal S512x128 .f32) (x1 : Vec Ideal S2048x128 .f32) (x2 : Vec Ideal S512x1 .f32)
    (p : Fin 512) (n : Fin 16384) (hn : n.val = 512 * (i 0).val + p.val)
    (h0 : ∀ d : Fin 128, x0 (ix2 p d) = X (ix3 (sOf n) (gOf n) d))
    (h1 : ∀ (s : Fin 2048) (d : Fin 128), x1 (ix2 s d) = C (ix2 s d))
    (h2 : x2 (ix2 p 0) = max (D (ix2 (sOf n) (gOf n))) floor6) :
    GenP.out0_3 (F := Ideal) i x0 x1 x2 (ix2 p 0) = rowLp X C D n := by
  refine (Cert.KernelIdeal.BodyRow.out_row i x0 x1 x2 p n hn).trans ?_
  unfold rowLp rowAdj
  rw [h2, funext h0, funext fun s => funext (h1 s)]

/-- WHAT POINT t WRITES BACK is block t of the column of log probabilities, when the three arrays the region finds are
    the rows X laid out as 16384 rows, the centroids C, and the diagonal logits D clipped below at the floor. -/
theorem flushed_eq_of (c : Dev nD) (X : (⟨3, ![2048, 8, 128]⟩ : Shape).Idx → EReal)
    (C : (⟨2, ![2048, 128]⟩ : Shape).Idx → EReal) (D : (⟨2, ![2048, 8]⟩ : Shape).Idx → EReal)
    (hX : ∀ (n : Fin 16384) (d : Fin 128),
      (GenP.V (F := Ideal) m c main_v31 : S16384x128.Idx → EReal) (ix2 n d) = X (ix3 (sOf n) (gOf n) d))
    (hC : (GenP.V (F := Ideal) m c main_v25 : S2048x128.Idx → EReal) = C)
    (hD : ∀ n : Fin 16384,
      (GenP.V (F := Ideal) m c main_v30 : S16384x1.Idx → EReal) (ix2 n 0) = max (D (ix2 (sOf n) (gOf n))) floor6)
    (t : Fin cfg0.N) :
    (GenP.dats m 0 c).flushed 3 t = ((cfg0.win 3).blk t).view.read (Elt Ideal) (outArr X C D) := by
  show (cfg0.win 3).cut (grid0.coords t) ((GenP.dats m 0 c).after 3 t) = _
  rw [GenP.after0_3]
  refine funext fun (y : S512x1.Idx) => ?_
  obtain ⟨p, rfl⟩ : ∃ p : Fin 512, y = ix2 p 0 := by
    have h1 : ∀ q : Fin 1, q = 0 := fun q => Subsingleton.elim _ _
    exact ⟨y 0, (eq_ix2 y).trans (congrArg (ix2 (y 0)) (h1 (y 1)))⟩
  have hN : cfg0.N = 32 := N_0
  have ht : t.val < 32 := hN ▸ t.isLt
  obtain ⟨-, -, -, -, -, -, e0, e1⟩ := index_facts t
  have hn : (⟨512 * t.val + p.val, by omega⟩ : Fin 16384).val = 512 * ((grid0.coords t) 0).val + p.val := by
    rw [coords_val t]
  show GenP.out0_3 (grid0.coords t) (GenP.iblk m c 0 t) (GenP.iblk m c 1 t) (GenP.iblk m c 2 t) (ix2 p 0)
    = outArr X C D (((cfg0.win 3).blk t).view.emb (ix2 p 0))
  refine (stored_row X C D (grid0.coords t) (GenP.iblk m c 0 t) (GenP.iblk m c 1 t) (GenP.iblk m c 2 t) p
    ⟨512 * t.val + p.val, by omega⟩ hn
    (fun d => (rows_block m c t p d ⟨512 * t.val + p.val, by omega⟩ rfl).trans (hX _ d))
    (fun s d => (centroids_block m c t s d).trans (congrFun hC (ix2 s d)))
    ((diag_block m c t p ⟨512 * t.val + p.val, by omega⟩ rfl).trans (hD _))).trans ?_
  refine congrArg (rowLp X C D) (Fin.ext ?_)
  show 512 * t.val + p.val = win0_3.index t (0 : Fin 2) * 512 + 1 * p.val
  omega

/-- An index of the output array is in point t's block iff each coordinate is in the block's range on its axis. -/
theorem mem_blk (t : Fin cfg0.N) (i : S16384x1.Idx) :
    i ∈ ((cfg0.win 3).blk t).view.set ↔ ∀ a : Fin 2, win0_3.index t a * S512x1.size a ≤ (i a).val
      ∧ (i a).val < win0_3.index t a * S512x1.size a + S512x1.size a := by
  show i ∈ ((View.whole main_v32).slice (win0_3.rect t)).set ↔ _
  rw [View.set_slice_whole, Rect.mem_set_unit]
  exact Iff.rfl

/-- Row r of the output lies in the block of point r / 512, and every point writes its block back. -/
theorem cover (i : S16384x1.Idx) :
    ∃ t : Fin cfg0.N, (cfg0.win 3).flush t = true ∧ i ∈ ((cfg0.win 3).blk t).view.set := by
  have hi0 : (i 0).val < 16384 := (i 0).isLt
  have hi1 : (i 1).val < 1 := (i 1).isLt
  have hN : cfg0.N = 32 := N_0
  let t : Fin cfg0.N := ⟨(i 0).val / 512, by rw [hN]; omega⟩
  obtain ⟨-, -, -, -, -, -, e0, e1⟩ := index_facts t
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    rw [e0]
    show (i 0).val / 512 * 512 ≤ (i 0).val ∧ (i 0).val < (i 0).val / 512 * 512 + 512
    omega
  | ⟨1, _⟩ =>
    show win0_3.index t (1 : Fin 2) * 1 ≤ (i 1).val ∧ (i 1).val < win0_3.index t (1 : Fin 2) * 1 + 1
    omega

/-- THE OUTPUT ARRAY after the run is the column of log probabilities (the 32 blocks tile it). -/
theorem out_array_of (c : Dev nD) (X : (⟨3, ![2048, 8, 128]⟩ : Shape).Idx → EReal)
    (C : (⟨2, ![2048, 128]⟩ : Shape).Idx → EReal) (D : (⟨2, ![2048, 8]⟩ : Shape).Idx → EReal)
    (hX : ∀ (n : Fin 16384) (d : Fin 128),
      (GenP.V (F := Ideal) m c main_v31 : S16384x128.Idx → EReal) (ix2 n d) = X (ix3 (sOf n) (gOf n) d))
    (hC : (GenP.V (F := Ideal) m c main_v25 : S2048x128.Idx → EReal) = C)
    (hD : ∀ n : Fin 16384,
      (GenP.V (F := Ideal) m c main_v30 : S16384x1.Idx → EReal) (ix2 n 0) = max (D (ix2 (sOf n) (gOf n))) floor6) :
    (GenP.dats m 0 c).arrAt 3 cfg0.N = outArr X C D :=
  (GenP.dats m 0 c).arrAt_eq_of_cover 3 (outArr X C D) (fun t _ => flushed_eq_of m c X C D hX hC hD t) cover

/-! ## The host operations after the region -/

/-- The total sum of a column of 16384 entries from the zero word: the zero word plus the sum over the rows. -/
theorem colSum (G : S16384x1.Idx → EReal) (i : S_.Idx) :
    Host.reduceAdd (F := Ideal) (φ := .f32) (G : FVec Ideal S16384x1 .f32) (constant (F := Ideal) S_ .f32 0x00000000#32)
        reducesTo_S16384x1_S_d0_1 h_S_ i
      = Ideal.ofBits .f32 0x00000000#32 + ∑ r : Fin 16384, G (ix2 r 0) := by
  simp only [Host.reduceAdd, Ideal.hostReduceAdd_def]
  refine (Ideal.hostReduceAdd_total reducesTo_S16384x1_S_d0_1 (fun b => b.elim0) G _ i).trans ?_
  rw [sum_idx2]
  exact congrArg₂ (· + ·) rfl (Finset.sum_congr rfl fun a _ => Fin.sum_univ_one _)

/-- The program's result from the output array's contents G: the operations after the region sum the column from the
    zero word, divide by the word of 16384 and negate — minus the mean of the column's entries. -/
theorem tail_of (c : Dev nD) (G : S16384x1.Idx → EReal)
    (hG : (GenP.dats m 0 c).arrAt 3 cfg0.N = G) :
    Pipeline.afterTail₀ cfgs (GenP.dats m) 0 (GenP.V0 m) [hostOps1] c main_v35
      = fun _ => negMean fun r => G (ix2 r 0) := by
  unfold Pipeline.afterTail₀
  show StableHlo.after hostOps1 _ (Proc.devRef .tc main_v35) = _
  after_results
  have hr : Pipeline.withArrays (cfgs 0).spec c (V0 m c) (fun w => (dats m 0 c).arrAt w (cfgs 0).N)
      (Proc.devRef .tc main_v32) = G :=
    (Pipeline.withArrays_arr spec0 launch0.win.arr_inj c _ _ 3).trans hG
  rw [hr]
  funext i
  simp only [Host.negf, Host.divf, Ideal.hostNegf_def, Ideal.negf_def, Ideal.hostDivf_def]
  rw [colSum]
  rfl

/-- Entry (r, 0) of the column of log probabilities is row r's. -/
theorem outArr_row (X : (⟨3, ![2048, 8, 128]⟩ : Shape).Idx → EReal) (C : (⟨2, ![2048, 128]⟩ : Shape).Idx → EReal)
    (D : (⟨2, ![2048, 8]⟩ : Shape).Idx → EReal) (r : Fin 16384) :
    outArr X C D (ix2 r 0) = logpK (rowAdj X C D r) (max (D (ix2 (sOf r) (gOf r))) floor6) := rfl

/-! ## The kernel's program, read -/

/-- The output array after the run: entry (n, 0) is row n's log probability. -/
theorem out_array (c : Dev nD) : (GenP.dats m 0 c).arrAt 3 cfg0.N
    = (fun j : S16384x1.Idx =>
        logpK (rowAdj (Cert.ReferenceIdeal.ReadP.val_main_v3 (F := Ideal) (m ((c : Thread nD τ).loc main_arg0)))
            (Cert.ReferenceIdeal.ReadP.val_main_v22 (F := Ideal) (m ((c : Thread nD τ).loc main_arg0)))
            (Cert.ReferenceIdeal.ReadP.val_main_v28 (F := Ideal) (m ((c : Thread nD τ).loc main_arg0)))
            ⟨(j 0).val, (j 0).isLt⟩)
          (max (Cert.ReferenceIdeal.ReadP.val_main_v28 (F := Ideal) (m ((c : Thread nD τ).loc main_arg0))
            (ix2 (sOf ⟨(j 0).val, (j 0).isLt⟩) (gOf ⟨(j 0).val, (j 0).isLt⟩))) floor6)) :=
  out_array_of m c _ _ _ (Cert.KernelIdeal.HostPrefix.V_rows_apply m c) (Cert.KernelIdeal.HostPrefix.V_centroids m c)
    (Cert.KernelIdeal.HostPrefix.V_diag_apply m c)

/-- The program's result after the host tail: the loss with each row's log-sum-exp assembled first. -/
theorem kernel_result (c : Dev nD) :
    Pipeline.afterTail₀ cfgs (GenP.dats m) 0 (GenP.V0 m) [hostOps1] c main_v35
      = fun _ => lossK (Cert.ReferenceIdeal.ReadP.val_main_v3 (F := Ideal) (m ((c : Thread nD τ).loc main_arg0)))
          (Cert.ReferenceIdeal.ReadP.val_main_v22 (F := Ideal) (m ((c : Thread nD τ).loc main_arg0)))
          (Cert.ReferenceIdeal.ReadP.val_main_v28 (F := Ideal) (m ((c : Thread nD τ).loc main_arg0))) := by
  refine (tail_of m c _ (out_array_of m c _ _ _ (Cert.KernelIdeal.HostPrefix.V_rows_apply m c)
    (Cert.KernelIdeal.HostPrefix.V_centroids m c) (Cert.KernelIdeal.HostPrefix.V_diag_apply m c))).trans ?_
  unfold lossK
  exact funext fun _ => congrArg negMean (funext fun r => outArr_row _ _ _ r)

end Cert.KernelIdeal.KernelLoss

end
-- ==== Proof.LibERealSum.lean ====
/-
  The embedding of the reals into the extended reals commutes with finite sums.

  It commutes with the sum of two reals, and the empty sum is `0` on both sides; a finite sum is built from those.
  With it a sum of extended reals whose terms are all real can be computed in `ℝ`, where multiplication distributes.
-/
import Idealize.ShloMosaic.PureOps.Ideal

namespace Cert.LibERealSum

/-- `((∑ i ∈ s, f i : ℝ) : EReal) = ∑ i ∈ s, (f i : EReal)`, by induction on the finite set. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.LibERealSum
-- ==== Proof.Finite.lean ====
/-
  Finiteness of the preprocessing.

  Under the precondition every entry of the argument array is a real number (neither infinity). From that, every entry of
  the three preprocessed arrays is a real number too: the unit vectors  xn = x / max (‖x‖, ε₁),  the unit centroids
  c / max (‖c‖, ε₂)  with  c  the mean of a speaker's eight unit vectors, and thirty times the similarity of a unit vector
  with its speaker's unit exclusive centroid  e / max (‖e‖, ε₂),  e = (Σ_g xn − xn) / 7.  Hence every adjusted logit of
  every row is a real number.

  The argument is closure of the reals inside the extended reals under each kind of operation met on the way:
  sums, differences, products, finite sums and maxima of reals are real; the square root of a sum of squares of reals is
  real, because that sum is a real that is not negative; a quotient of a real by a POSITIVE real is real; and each divisor is
  either the maximum of a positive constant with a real, or the constant seven or eight. Each constant is given by its
  single-precision word, and a word whose exponent field is not all ones denotes a real, a positive one when moreover the
  sign bit is clear and the exponent field is not zero.
-/
import proofs.«126931_j90366111907979_1_alg».proof.Proof.RefRead
import proofs.«126931_j90366111907979_1_alg».proof.Proof.RowLogProb
import proofs.«126931_j90366111907979_1_alg».proof.Pre_finite_inputs
import proofs.«126931_j90366111907979_1_alg».proof.Proof.Gen.Pre_finite_inputs
import proofs.«126931_j90366111907979_1_alg».proof.Proof.LibERealSum
import Idealize.ShloMosaic.Lib.ReduceAll

noncomputable section

namespace Cert.ReferenceIdeal.Finite

open Cert.ReferenceIdeal Cert.ReferenceIdeal.Gen Cert.ReferenceIdeal.ReadP Idealize.ShloMosaic

/-! ## Closure of the reals inside the extended reals -/

theorem real_add {a b : EReal} (ha : ∃ q : ℝ, a = q) (hb : ∃ q : ℝ, b = q) : ∃ q : ℝ, a + b = q := by
  obtain ⟨p, rfl⟩ := ha; obtain ⟨q, rfl⟩ := hb; exact ⟨p + q, (EReal.coe_add p q).symm⟩

theorem real_sub {a b : EReal} (ha : ∃ q : ℝ, a = q) (hb : ∃ q : ℝ, b = q) : ∃ q : ℝ, a - b = q := by
  obtain ⟨p, rfl⟩ := ha; obtain ⟨q, rfl⟩ := hb; exact ⟨p - q, (EReal.coe_sub p q).symm⟩

theorem real_mul {a b : EReal} (ha : ∃ q : ℝ, a = q) (hb : ∃ q : ℝ, b = q) : ∃ q : ℝ, a * b = q := by
  obtain ⟨p, rfl⟩ := ha; obtain ⟨q, rfl⟩ := hb; exact ⟨p * q, (EReal.coe_mul p q).symm⟩

theorem real_max {a b : EReal} (ha : ∃ q : ℝ, a = q) (hb : ∃ q : ℝ, b = q) : ∃ q : ℝ, max a b = q := by
  obtain ⟨p, rfl⟩ := ha; obtain ⟨q, rfl⟩ := hb; exact ⟨max p q, (EReal.coe_strictMono.monotone.map_max (a := p) (b := q)).symm⟩

/-- A finite sum of reals is real. -/
theorem real_sum {ι : Type} [Fintype ι] (f : ι → EReal) (hf : ∀ k, ∃ q : ℝ, f k = q) : ∃ q : ℝ, ∑ k, f k = q := by
  choose g hg using hf
  exact ⟨∑ k, g k, by rw [Cert.LibERealSum.coe_sum]; exact Finset.sum_congr rfl fun k _ => hg k⟩

/-- The maximum of a positive real with a real is a positive real. -/
theorem pos_max {a b : EReal} (ha : ∃ q : ℝ, 0 < q ∧ a = q) (hb : ∃ q : ℝ, b = q) : ∃ q : ℝ, 0 < q ∧ max a b = q := by
  obtain ⟨p, hp, rfl⟩ := ha; obtain ⟨q, rfl⟩ := hb
  exact ⟨max p q, lt_of_lt_of_le hp (le_max_left p q), (EReal.coe_strictMono.monotone.map_max (a := p) (b := q)).symm⟩

/-- A real divided by a positive real is real. -/
theorem real_div {a b : EReal} (ha : ∃ q : ℝ, a = q) (hb : ∃ q : ℝ, 0 < q ∧ b = q) : ∃ q : ℝ, Ideal.div a b = q := by
  obtain ⟨p, rfl⟩ := ha; obtain ⟨q, hq, rfl⟩ := hb
  rw [Ideal.div_coe (ne_of_gt hq)]
  exact ⟨p * (1 / q), (EReal.coe_mul p (1 / q)).symm⟩

/-- The square root of zero plus a sum of squares of reals is real: the sum is a real that is not negative. -/
theorem real_sqrt_sum_sq {ι : Type} [Fintype ι] (f : ι → EReal) (hf : ∀ k, ∃ q : ℝ, f k = q) :
    ∃ q : ℝ, Ideal.sqrt (Ideal.ofBits .f32 0x00000000#32 + ∑ k, f k * f k) = q := by
  choose g hg using hf
  have e : (Ideal.ofBits .f32 0x00000000#32 + ∑ k, f k * f k : EReal) = ((∑ k, g k * g k : ℝ) : EReal) := by
    rw [Ideal.ofBits_zero_f32, zero_add, Cert.LibERealSum.coe_sum]
    exact Finset.sum_congr rfl fun k _ => by rw [hg k, EReal.coe_mul]
  rw [e, Ideal.sqrt_coe, if_neg (not_lt.mpr (Finset.sum_nonneg fun k _ => mul_self_nonneg (g k)))]
  exact ⟨_, rfl⟩

/-! ## The constants, from their words -/

/-- A single-precision word whose exponent field is not all ones denotes a real. -/
theorem f32_real (b : BitVec 32) (h : (b.extractLsb' 23 8).toNat ≠ 2 ^ 8 - 1) : ∃ q : ℝ, Ideal.ofBits .f32 b = q := by
  show ∃ q : ℝ, Ideal.ieee 8 23 b = q
  unfold Ideal.ieee
  simp only []
  rw [if_neg h]
  split_ifs <;> exact ⟨_, rfl⟩

/-- A single-precision word with the sign bit clear and an exponent field neither all ones nor zero denotes a positive real. -/
theorem f32_pos (b : BitVec 32) (hs : (b.extractLsb' (8 + 23) 1 == 1#1) = false)
    (h1 : (b.extractLsb' 23 8).toNat ≠ 2 ^ 8 - 1) (h0 : (b.extractLsb' 23 8).toNat ≠ 0) :
    ∃ q : ℝ, 0 < q ∧ Ideal.ofBits .f32 b = q := by
  show ∃ q : ℝ, 0 < q ∧ Ideal.ieee 8 23 b = q
  unfold Ideal.ieee
  simp only []
  rw [if_neg h1, if_neg h0, hs, if_neg Bool.false_ne_true]
  refine ⟨_, ?_, rfl⟩
  positivity

theorem zero_real : ∃ q : ℝ, Ideal.ofBits .f32 0x00000000#32 = q := ⟨0, Ideal.ofBits_zero_f32⟩
/-- The norm floor of the unit vectors (about 1e-12). -/
theorem epsNorm_pos : ∃ q : ℝ, 0 < q ∧ Ideal.ofBits .f32 0x2B8CBCCC#32 = q := f32_pos _ (by decide) (by decide) (by decide)
/-- The norm floor of the centroids (about 1e-8). -/
theorem epsCent_pos : ∃ q : ℝ, 0 < q ∧ Ideal.ofBits .f32 0x322BCC77#32 = q := f32_pos _ (by decide) (by decide) (by decide)
theorem seven_pos : ∃ q : ℝ, 0 < q ∧ Ideal.ofBits .f32 0x40E00000#32 = q := f32_pos _ (by decide) (by decide) (by decide)
theorem eight_pos : ∃ q : ℝ, 0 < q ∧ Ideal.ofBits .f32 0x41000000#32 = q := f32_pos _ (by decide) (by decide) (by decide)
theorem thirty_real : ∃ q : ℝ, Ideal.ofBits .f32 0x41F00000#32 = q := f32_real _ (by decide)
theorem floor6_real : ∃ q : ℝ, Ideal.ofBits .f32 0x358637BD#32 = q := f32_real _ (by decide)
/-- The word of +∞. -/
theorem inf_top : Ideal.ofBits .f32 0x7F800000#32 = ⊤ := by simp [Ideal.ofBits, Ideal.ieee]

/-! ## The precondition: every entry of the argument is real -/

/-- An extended real whose absolute value is below +∞ is a real. -/
theorem real_of_abs_lt_top (a : EReal) (h : Ideal.cmp .olt (max a (-a)) ⊤ = 1#1) : ∃ q : ℝ, a = q := by
  induction a using EReal.rec with
  | bot => exact absurd h (by simp [Ideal.cmp])
  | coe r => exact ⟨r, rfl⟩
  | top => exact absurd h (by simp [Ideal.cmp])

theorem arg_real (x : (⟨S2048x8x128, .f32⟩ : BufTy).Contents (Elt Ideal))
    (h : Cert.Pre_finite_inputs.fn (F := Ideal) x = fun _ => 1#1) : ∀ i, ∃ q : ℝ, x i = q := by
  intro i
  have e := congrFun h ValueIdx.ix0
  dsimp only [Cert.Pre_finite_inputs.fn] at e
  haveI : Subsingleton Cert.Pre_finite_inputs.S_.Idx := ⟨fun a b => funext fun d => d.elim0⟩
  have hi := Host.reduce_andi_all _ _ _ _ _ e i
  refine real_of_abs_lt_top (x i) ?_
  rw [← inf_top]
  exact hi

/-! ## The unit vectors -/

/-- The norm of a vector of reals is real. -/
theorem norm_x_real (x : (⟨S2048x8x128, .f32⟩ : BufTy).Contents (Elt Ideal)) (hx : ∀ i, ∃ q : ℝ, x i = q) (i : S2048x8x1.Idx) :
    ∃ q : ℝ, val_main_v0 (F := Ideal) x i = q := by
  rw [val_main_v0_apply, val_main_call0_v2_apply, val_main_call0_v1_apply, val_main_call0_cst_apply]
  simp only [val_main_call0_v0_apply, Ideal.hostUnary_sqrt_def, Ideal.ofBits_def, Ideal.mulf_def]
  exact real_sqrt_sum_sq _ (fun k => hx _)

/-- The clipped norm is a positive real. -/
theorem clip_x_pos (x : (⟨S2048x8x128, .f32⟩ : BufTy).Contents (Elt Ideal)) (hx : ∀ i, ∃ q : ℝ, x i = q) (i : S2048x8x1.Idx) :
    ∃ q : ℝ, 0 < q ∧ val_main_v1 (F := Ideal) x i = q := by
  rw [val_main_v1_apply, val_main_call1_v1_apply, val_main_call1_v0_apply, val_main_cst_apply]
  simp only [Ideal.maximumf_def, Ideal.ofBits_def]
  exact pos_max epsNorm_pos (norm_x_real x hx i)

theorem xn_real (x : (⟨S2048x8x128, .f32⟩ : BufTy).Contents (Elt Ideal)) (hx : ∀ i, ∃ q : ℝ, x i = q) :
    ∀ i, ∃ q : ℝ, val_main_v3 (F := Ideal) x i = q := by
  intro i
  rw [val_main_v3_apply, val_main_v2_apply]
  simp only [Ideal.hostDivf_def]
  exact real_div (hx i) (clip_x_pos x hx _)

/-! ## The centroids -/

/-- A speaker's mean unit vector. -/
theorem mean_real (x : (⟨S2048x8x128, .f32⟩ : BufTy).Contents (Elt Ideal)) (hx : ∀ i, ∃ q : ℝ, x i = q) (i : S2048x128.Idx) :
    ∃ q : ℝ, val_main_v6 (F := Ideal) x i = q := by
  rw [val_main_v6_apply, val_main_v4_apply, val_main_v5_apply, val_main_cst_0_apply, val_main_cst_1_apply]
  simp only [Ideal.hostDivf_def, Ideal.ofBits_def]
  exact real_div (real_add zero_real (real_sum _ fun k => xn_real x hx _)) eight_pos

theorem norm_mean_real (x : (⟨S2048x8x128, .f32⟩ : BufTy).Contents (Elt Ideal)) (hx : ∀ i, ∃ q : ℝ, x i = q) (i : S2048x1.Idx) :
    ∃ q : ℝ, val_main_v19 (F := Ideal) x i = q := by
  rw [val_main_v19_apply, val_main_call4_v2_apply, val_main_call4_v1_apply, val_main_call4_cst_apply]
  simp only [val_main_call4_v0_apply, Ideal.hostUnary_sqrt_def, Ideal.ofBits_def, Ideal.mulf_def]
  exact real_sqrt_sum_sq _ (fun k => mean_real x hx _)

theorem clip_mean_pos (x : (⟨S2048x8x128, .f32⟩ : BufTy).Contents (Elt Ideal)) (hx : ∀ i, ∃ q : ℝ, x i = q) (i : S2048x1.Idx) :
    ∃ q : ℝ, 0 < q ∧ val_main_v20 (F := Ideal) x i = q := by
  rw [val_main_v20_apply, val_main_call5_v1_apply, val_main_call5_v0_apply, val_main_cst_6_apply]
  simp only [Ideal.maximumf_def, Ideal.ofBits_def]
  exact pos_max epsCent_pos (norm_mean_real x hx i)

theorem centn_real (x : (⟨S2048x8x128, .f32⟩ : BufTy).Contents (Elt Ideal)) (hx : ∀ i, ∃ q : ℝ, x i = q) :
    ∀ i, ∃ q : ℝ, val_main_v22 (F := Ideal) x i = q := by
  intro i
  rw [val_main_v22_apply, val_main_v21_apply]
  simp only [Ideal.hostDivf_def]
  exact real_div (mean_real x hx i) (clip_mean_pos x hx _)

/-! ## The exclusive centroids and the diagonal similarity -/

/-- The mean of a speaker's other seven unit vectors. -/
theorem exc_real (x : (⟨S2048x8x128, .f32⟩ : BufTy).Contents (Elt Ideal)) (hx : ∀ i, ∃ q : ℝ, x i = q) (i : S2048x8x128.Idx) :
    ∃ q : ℝ, val_main_v12 (F := Ideal) x i = q := by
  rw [val_main_v12_apply, val_main_v10_apply, val_main_v9_apply, val_main_v8_apply, val_main_v7_apply, val_main_v11_apply,
    val_main_cst_2_apply, val_main_cst_3_apply]
  simp only [Ideal.hostDivf_def, Ideal.subf_def, Ideal.ofBits_def]
  exact real_div (real_sub (real_add zero_real (real_sum _ fun k => xn_real x hx _)) (xn_real x hx i)) seven_pos

theorem norm_exc_real (x : (⟨S2048x8x128, .f32⟩ : BufTy).Contents (Elt Ideal)) (hx : ∀ i, ∃ q : ℝ, x i = q) (i : S2048x8x1.Idx) :
    ∃ q : ℝ, val_main_v13 (F := Ideal) x i = q := by
  rw [val_main_v13_apply, val_main_call2_v2_apply, val_main_call2_v1_apply, val_main_call2_cst_apply]
  simp only [val_main_call2_v0_apply, Ideal.hostUnary_sqrt_def, Ideal.ofBits_def, Ideal.mulf_def]
  exact real_sqrt_sum_sq _ (fun k => exc_real x hx _)

theorem clip_exc_pos (x : (⟨S2048x8x128, .f32⟩ : BufTy).Contents (Elt Ideal)) (hx : ∀ i, ∃ q : ℝ, x i = q) (i : S2048x8x1.Idx) :
    ∃ q : ℝ, 0 < q ∧ val_main_v14 (F := Ideal) x i = q := by
  rw [val_main_v14_apply, val_main_call3_v1_apply, val_main_call3_v0_apply, val_main_cst_4_apply]
  simp only [Ideal.maximumf_def, Ideal.ofBits_def]
  exact pos_max epsCent_pos (norm_exc_real x hx i)

/-- The unit exclusive centroid. -/
theorem excn_real (x : (⟨S2048x8x128, .f32⟩ : BufTy).Contents (Elt Ideal)) (hx : ∀ i, ∃ q : ℝ, x i = q) (i : S2048x8x128.Idx) :
    ∃ q : ℝ, val_main_v16 (F := Ideal) x i = q := by
  rw [val_main_v16_apply, val_main_v15_apply]
  simp only [Ideal.hostDivf_def]
  exact real_div (exc_real x hx i) (clip_exc_pos x hx _)

theorem cos30_real (x : (⟨S2048x8x128, .f32⟩ : BufTy).Contents (Elt Ideal)) (hx : ∀ i, ∃ q : ℝ, x i = q) :
    ∀ i, ∃ q : ℝ, val_main_v28 (F := Ideal) x i = q := by
  intro i
  rw [val_main_v28_apply, val_main_v27_apply, val_main_cst_8_apply, val_main_v18_apply, val_main_cst_5_apply]
  simp only [val_main_v17_apply, Ideal.mulf_def, Ideal.ofBits_def]
  exact real_mul thirty_real (real_add zero_real (real_sum _ fun k => real_mul (xn_real x hx _) (excn_real x hx _)))

/-! ## The adjusted logits -/

theorem rowAdj_real (X : (⟨3, ![2048, 8, 128]⟩ : Shape).Idx → EReal) (C : (⟨2, ![2048, 128]⟩ : Shape).Idx → EReal)
    (D : (⟨2, ![2048, 8]⟩ : Shape).Idx → EReal)
    (hX : ∀ i, ∃ q : ℝ, X i = q) (hC : ∀ i, ∃ q : ℝ, C i = q) (hD : ∀ i, ∃ q : ℝ, D i = q) :
    ∀ r t, ∃ q : ℝ, Cert.RowLogProb.rowAdj X C D r t = q := by
  intro r t
  unfold Cert.RowLogProb.rowAdj Cert.RowLogProb.adj Cert.RowLogProb.scale Cert.RowLogProb.floor6
  split_ifs
  · exact real_max (hD _) floor6_real
  · exact real_max (real_mul (real_sum _ fun d => real_mul (hX _) (hC _)) thirty_real) floor6_real

end Cert.ReferenceIdeal.Finite

end
-- ==== Proof.lean ====
/-
  The certificate of the speaker-verification loss kernel against its jnp reference.

  Both programs normalise the 2048 × 8 utterance vectors, form each speaker's centroid and each utterance's exclusive
  centroid, and compare every utterance with every centroid; row r = 8 s + g has adjusted logits a[r, t] — the clipped
  scaled similarity with centroid t, and in its own column t = s the clipped similarity d[r] with its exclusive centroid.
  The loss is minus the mean over the rows of log-softmax(a[r, ·])[s]. The kernel computes that per block of 512 rows as
  d − (M + log Σ exp(a − M)) with M the row's maximum; the reference scatters the diagonal, clips, applies log_softmax,
  (a − M) − log Σ exp(a − M), and gathers the own column. On the extended reals the two arrangements agree exactly when
  M is a real number, which holds because finite inputs make every entry of the preprocessed arrays real.

  The three frames: the kernel's two come from the frame certificates (FrameKernel.lean, FrameKernelIdeal.lean), the
  reference's from its run with the result dropped. The idealisation's ledger is empty. The algebraic claim: the
  kernel's result is `lossK` of the three preprocessed arrays (KernelLoss.lean, over BodyRow.lean and HostPrefix.lean),
  the reference's is `lossR` of the same arrays (RefLoss.lean, over RefLogits.lean and RefSoftmax.lean), and
  `loss_eq` (RowLogProb.lean) joins them under the finiteness proved in Finite.lean.
-/
import proofs.«126931_j90366111907979_1_alg».proof.Defs
import proofs.«126931_j90366111907979_1_alg».proof.Proof.Gen.Kernel
import proofs.«126931_j90366111907979_1_alg».proof.Proof.Gen.KernelIdeal
import proofs.«126931_j90366111907979_1_alg».proof.Proof.Gen.ReferenceIdeal
import proofs.«126931_j90366111907979_1_alg».proof.Proof.Gen.Pre_finite_inputs
import proofs.«126931_j90366111907979_1_alg».proof.Proof.FrameKernel
import proofs.«126931_j90366111907979_1_alg».proof.Proof.FrameKernelIdeal
import proofs.«126931_j90366111907979_1_alg».proof.Proof.RefRun
import proofs.«126931_j90366111907979_1_alg».proof.Proof.RefLoss
import proofs.«126931_j90366111907979_1_alg».proof.Proof.KernelLoss
import proofs.«126931_j90366111907979_1_alg».proof.Proof.Finite
import proofs.«126931_j90366111907979_1_alg».proof.Proof.RowLogProb
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.GenP.frame m ρ

theorem frame_ki : Cert.frame_KernelIdeal (hKernelIdeal := Cert.KernelIdeal.Gen.facts) (hPre_finite_inputs := Cert.Pre_finite_inputs.Gen.facts) :=
  fun m ρ _ => Cert.KernelIdeal.GenP.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The idealised kernel's run: every weakly fair execution ends with the result at the loss of the three preprocessed
    arrays of the argument, each row's log-sum-exp assembled first, and the argument unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v35)
            = (fun _ => Cert.RowLogProb.lossK
                (Cert.ReferenceIdeal.ReadP.val_main_v3 (F := Ideal) (m ((c.tc : Thread Cert.KernelIdeal.nD Cert.KernelIdeal.τ).loc Cert.KernelIdeal.main_arg0)))
                (Cert.ReferenceIdeal.ReadP.val_main_v22 (F := Ideal) (m ((c.tc : Thread Cert.KernelIdeal.nD Cert.KernelIdeal.τ).loc Cert.KernelIdeal.main_arg0)))
                (Cert.ReferenceIdeal.ReadP.val_main_v28 (F := Ideal) (m ((c.tc : Thread Cert.KernelIdeal.nD Cert.KernelIdeal.τ).loc Cert.KernelIdeal.main_arg0))))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)) :=
  (θ_run Cert.KernelIdeal.defs _ _).mono
    (fun _ h c =>
      ⟨((h c).2 Cert.KernelIdeal.main_v35 (Pipeline.mem_restRefs_of Cert.KernelIdeal.main_v35 (by decide) (by decide))).trans
          (Cert.KernelIdeal.KernelLoss.kernel_result m c),
        ((h c).2 Cert.KernelIdeal.main_arg0 (Pipeline.mem_restRefs_of Cert.KernelIdeal.main_arg0 (by decide) (by decide))).trans
          (Cert.KernelIdeal.GenP.W_main_arg0 m (Cert.KernelIdeal.GenP.dats m) c)⟩)
    (Cert.KernelIdeal.GenP.run_main m ρ)

/-- From memories agreeing on the argument both idealised programs end at one number: the kernel at the loss with each
    row's log-sum-exp assembled first, the reference at the loss with each row's own logit shifted first, and the two
    agree because every adjusted logit is real under finite inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, kernel_run m ρ, ?_⟩
  refine (θ_run Cert.ReferenceIdeal.defs _ _).mono (fun _ h c => ⟨(h c).1.trans ?_, (h c).2⟩)
    (Cert.ReferenceIdeal.ValueP.run (F := Ideal) m' ρ')
  have hx := Cert.ReferenceIdeal.Finite.arg_real _ (hpre c)
  rw [Cert.ReferenceIdeal.RefLoss.result_eq, hagree c]
  funext _
  exact (Cert.RowLogProb.loss_eq _ _ _
    (Cert.ReferenceIdeal.Finite.rowAdj_real _ _ _ (Cert.ReferenceIdeal.Finite.xn_real _ hx)
      (Cert.ReferenceIdeal.Finite.centn_real _ hx) (Cert.ReferenceIdeal.Finite.cos30_real _ hx))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
